-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x2048x1024 .f32) (main_arg1 : FVec F S1024x64 .f32) (main_arg2 : FVec F S1024x64 .f32) (main_arg3 : FVec F S1024x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x2048x1024 : Shape := ⟨3, ![4, 2048, 1024]⟩
abbrev S1024x64 : Shape := ⟨2, ![1024, 64]⟩
abbrev S1024x192 : Shape := ⟨2, ![1024, 192]⟩
abbrev S8192x1024 : Shape := ⟨2, ![8192, 1024]⟩
abbrev S8192x64 : Shape := ⟨2, ![8192, 64]⟩
abbrev S2048x1024 : Shape := ⟨2, ![2048, 1024]⟩
abbrev S2048x64 : Shape := ⟨2, ![2048, 64]⟩
abbrev S2048x192 : Shape := ⟨2, ![2048, 192]⟩
abbrev S4x2048x64 : Shape := ⟨3, ![4, 2048, 64]⟩
abbrev S1x1024x64 : Shape := ⟨3, ![1, 1024, 64]⟩
abbrev S1x2048x64 : Shape := ⟨3, ![1, 2048, 64]⟩
abbrev S64x2048 : Shape := ⟨2, ![64, 2048]⟩
abbrev S1024x2048 : Shape := ⟨2, ![1024, 2048]⟩
abbrev S1024x1 : Shape := ⟨2, ![1024, 1]⟩
abbrev S1x2048 : Shape := ⟨2, ![1, 2048]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S8192x1024, .f32⟩
  | .hbm, ⟨6, _⟩ => ⟨S8192x64, .f32⟩
  | .hbm, ⟨7, _⟩ => ⟨S8192x64, .f32⟩
  | .hbm, ⟨8, _⟩ => ⟨S8192x64, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S4x2048x64, .f32⟩
  | .local _ .vmem, ⟨0, _⟩ => ⟨S2048x1024, .f32⟩
  | .local _ .vmem, ⟨1, _⟩ => ⟨S2048x1024, .f32⟩
  | .local _ .vmem, ⟨2, _⟩ => ⟨S1024x192, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S1x1024x64, .f32⟩
  | .local _ .vmem, ⟨10, _⟩ => ⟨S1x1024x64, .f32⟩
  | .local _ .vmem, ⟨11, _⟩ => ⟨S1x2048x64, .f32⟩
  | .local _ .vmem, ⟨12, _⟩ => ⟨S1x2048x64, .f32⟩
  | .local _ .vmem, ⟨13, _⟩ => ⟨S1x2048x64, .f32⟩
  | .local _ .vmem, ⟨14, _⟩ => ⟨S1x2048x64, .f32⟩
  | .local _ .vmem, ⟨15, _⟩ => ⟨S1x1024x64, .f32⟩
  | .local _ .vmem, ⟨16, _⟩ => ⟨S1x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x64_S1024x64_S1024x64_S1024x192_d1 : Shape.Concatenates [S1024x64, S1024x64, S1024x64] S1024x192 1
  shapeCasts_S4x2048x1024_S8192x1024 : S4x2048x1024.ShapeCasts S8192x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  slices_S2048x192_o0_64_S2048x64 : S2048x192.Slices ![0, 64] S2048x64
  slices_S2048x192_o0_128_S2048x64 : S2048x192.Slices ![0, 128] S2048x64
  shapeCasts_S8192x64_S4x2048x64 : S8192x64.ShapeCasts S4x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S1024x1_d0_w32 : S1024x1.Iotas .tc 32 [0]
  iota_S1x2048_d1_w32 : S1x2048.Iotas .tc 32 [1]
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  dot_S2048x1024_S1024x192_S2048x192_1_0_0_1_n_n_wf : DotDims.WF S2048x1024 S1024x192 S2048x192 [1] [0] [0] [1] [] []
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .f32 = 32 ∨ (Rect.block (s := S8192x64) S2048x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x2048x64.size a
  hwx1_0 : ∀ i : grid1.Coords, EltTy.bits .f32 = 32 ∨ (Rect.block (s := S4x2048x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x2048x64.size a
  hwx1_1 : ∀ i : grid1.Coords, EltTy.bits .f32 = 32 ∨ (Rect.block (s := S4x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x2048x64.size a
  hwx1_2 : ∀ i : grid1.Coords, EltTy.bits .f32 = 32 ∨ (Rect.block (s := S4x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x2048x64.size a
  hwx1_3 : ∀ i : grid1.Coords, EltTy.bits .f32 = 32 ∨ (Rect.block (s := S4x2048x64) S1x1024x64.size (cc1_transform_3 i) (hinb1_3 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S4x2048x2048, .f32⟩
  | .hbm, ⟨40, _⟩ => ⟨S4x2048x2048, .f32⟩
  | .hbm, ⟨41, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.FrameK.lean ====
/-
  The run of both kernel regions of the program, at any float instance.

  Region 0 multiplies a block of 2048 rows of the reshaped input by the concatenated weight matrix and stores
  three column slices of the product into three output blocks; region 1, per batch and per block of 1024
  query rows, stores one function of the query block and of the batch's whole key and value blocks.
  Neither body keeps anything between grid points, so what a point leaves in an output's staging buffer is a
  function of that point's input blocks alone (`out0_2` … `out1_3`), and the program's run is the chain: host
  operations, region 0, host operations, region 1, every buffer's contents at each boundary named (`W0` … `W4`).
  The last theorem reads every unscoped buffer of the final memory off the last boundary.
-/
import proofs.«154036_j14757507629205_2_alg».proof.Proof.Gen.Kernel.Launch
import proofs.«154036_j14757507629205_2_alg».proof.Proof.Gen.Kernel.Skeleton
import proofs.«154036_j14757507629205_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each load and store is of a whole buffer. -/
abbrev rX0 : Rect S2048x1024 := Rect.unit (s := S2048x1024) ![0, 0] S2048x1024.size inb_S2048x1024_S2048x1024_0_0
abbrev rW0 : Rect S1024x192 := Rect.unit (s := S1024x192) ![0, 0] S1024x192.size inb_S1024x192_S1024x192_0_0
abbrev rO0 : Rect S2048x64 := Rect.unit (s := S2048x64) ![0, 0] S2048x64.size inb_S2048x64_S2048x64_0_0

/-- What the body leaves in each output's staging buffer, from the two input blocks. -/
def out0_2 (x0 : Vec F S2048x1024 .f32) (x1 : Vec F S1024x192 .f32) : Vec F S2048x64 .f32 :=
  View.canon [⟨rO0, k0_pay2 (View.ld x0 rX0) (View.ld x1 rW0)⟩]
def out0_3 (x0 : Vec F S2048x1024 .f32) (x1 : Vec F S1024x192 .f32) : Vec F S2048x64 .f32 :=
  View.canon [⟨rO0, k0_pay3 (View.ld x0 rX0) (View.ld x1 rW0)⟩]
def out0_4 (x0 : Vec F S2048x1024 .f32) (x1 : Vec F S1024x192 .f32) : Vec F S2048x64 .f32 :=
  View.canon [⟨rO0, k0_pay4 (View.ld x0 rX0) (View.ld x1 rW0)⟩]

/-- One store of the whole buffer covers it. -/
theorem cover0 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

set_option maxHeartbeats 1000000 in
/-- The body on whole staging memrefs: the inputs are left as found, each output ends at its function of them. -/
theorem sound_kernel0 (c : Dev nD) (E : Set ℕ) (i : grid0.Coords)
    (arg1 : Memref sig .tc .vmem S2048x1024 .f32) (harg1 : arg1.IsWhole) (arg2 : Memref sig .tc .vmem S1024x192 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole)
    (x0 : Vec F S2048x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- Region 0's proof data: the arrays as the region finds them; after the body each input's buffer at its block and
    each output's at its function of the input blocks; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

/-! # Region 1: attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQ1 : Rect S1x1024x64 := Rect.unit (s := S1x1024x64) ![0, 0, 0] S1x1024x64.size inb_S1x1024x64_S1x1024x64_0_0_0
abbrev rK1 : Rect S1x2048x64 := Rect.unit (s := S1x2048x64) ![0, 0, 0] S1x2048x64.size inb_S1x2048x64_S1x2048x64_0_0_0

/-- What the body leaves in the output's staging buffer at grid coordinates `i`, from the three input blocks. -/
def out1_3 (i : grid1.Coords) (x0 : Vec F S1x1024x64 .f32) (x1 x2 : Vec F S1x2048x64 .f32) : Vec F S1x1024x64 .f32 :=
  View.canon [⟨rQ1, k1_pay1 i (View.ld x0 rQ1) (View.ld x1 rK1) (View.ld x2 rK1)⟩]

theorem cover1 (p0 : Vec F S1x1024x64 .f32) (y : S1x1024x64.Idx) :
    ∃ pc ∈ ([⟨rQ1, p0⟩] : List (View.Piece (Elt F) S1x1024x64 .f32)), y ∈ pc.1.set :=
  View.cover_of_tiled [⟨rQ1, p0⟩] S1x1024x64.size (by rfl) y

set_option maxHeartbeats 1000000 in
theorem sound_kernel1 (c : Dev nD) (E : Set ℕ) (i : grid1.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x64 .f32) (harg5 : arg5.IsWhole)
    (x0 : Vec F S1x1024x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.RunK.lean ====
/-
  The program's run as a chain of four segments — the concatenation and the reshape of the input, the projection
  region, the three reshapes of its results, the attention region — with every unscoped buffer's contents named at
  each boundary: `W0` the launch memory, `W1` after the first host operations, `W2` with region 0's three output
  arrays at what its write-backs leave, `W3` after the reshapes, `W4` with region 1's output array at what its
  write-backs leave. No segment writes an argument array, so each reaches the end as launched.
-/
import proofs.«154036_j14757507629205_2_alg».proof.Proof.FrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the two stretches writes and no region's window names keeps its launch
    contents to the end. -/
theorem W4_keep (c : Dev nD) (b : Ref sig .tc) (h0 : ∀ w, Pipeline.arrRef spec0 w ≠ b) (h1 : ∀ w, Pipeline.arrRef spec1 w ≠ b)
    (hw0 : b ∉ ([main_v0, main_v1] : List (Ref sig .tc))) (hw1 : b ∉ ([main_v3, main_v4, main_v5] : List (Ref sig .tc))) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          refine ⟨?_, ?_, ?_⟩
          · exact StableHlo.devRef_ne_of_ne (fun e => hw1 (by rw [e]; simp))
          · exact StableHlo.devRef_ne_of_ne (fun e => hw1 (by rw [e]; simp))
          · exact StableHlo.devRef_ne_of_ne (fun e => hw1 (by rw [e]; simp))))
    _ = W1 m ρ c (Proc.devRef .tc b) := W2_of_ne m ρ c b h0
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          refine ⟨?_, ?_⟩
          · exact StableHlo.devRef_ne_of_ne (fun e => hw0 (by rw [e]; simp))
          · exact StableHlo.devRef_ne_of_ne (fun e => hw0 (by rw [e]; simp))))
    _ = m ((c : Thread nD τ).loc b) := rfl

theorem W4_main_arg0 (c : Dev nD) : W4 m ρ c (Proc.devRef .tc main_arg0) = m ((c : Thread nD τ).loc main_arg0) :=
  W4_keep m ρ c main_arg0 (by decide) (by decide) (by decide) (by decide)
theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.FrameKI.lean ====
/-
  The run of both kernel regions of the program, at any float instance.

  Region 0 multiplies a block of 2048 rows of the reshaped input by the concatenated weight matrix and stores
  three column slices of the product into three output blocks; region 1, per batch and per block of 1024
  query rows, stores one function of the query block and of the batch's whole key and value blocks.
  Neither body keeps anything between grid points, so what a point leaves in an output's staging buffer is a
  function of that point's input blocks alone (`out0_2` … `out1_3`), and the program's run is the chain: host
  operations, region 0, host operations, region 1, every buffer's contents at each boundary named (`W0` … `W4`).
  The last theorem reads every unscoped buffer of the final memory off the last boundary.
-/
import proofs.«154036_j14757507629205_2_alg».proof.Proof.Gen.KernelIdeal.Launch
import proofs.«154036_j14757507629205_2_alg».proof.Proof.Gen.KernelIdeal.Skeleton
import proofs.«154036_j14757507629205_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # Region 0: the projection -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: each load and store is of a whole buffer. -/
abbrev rX0 : Rect S2048x1024 := Rect.unit (s := S2048x1024) ![0, 0] S2048x1024.size inb_S2048x1024_S2048x1024_0_0
abbrev rW0 : Rect S1024x192 := Rect.unit (s := S1024x192) ![0, 0] S1024x192.size inb_S1024x192_S1024x192_0_0
abbrev rO0 : Rect S2048x64 := Rect.unit (s := S2048x64) ![0, 0] S2048x64.size inb_S2048x64_S2048x64_0_0

/-- What the body leaves in each output's staging buffer, from the two input blocks. -/
def out0_2 (x0 : Vec F S2048x1024 .f32) (x1 : Vec F S1024x192 .f32) : Vec F S2048x64 .f32 :=
  View.canon [⟨rO0, k0_pay2 (View.ld x0 rX0) (View.ld x1 rW0)⟩]
def out0_3 (x0 : Vec F S2048x1024 .f32) (x1 : Vec F S1024x192 .f32) : Vec F S2048x64 .f32 :=
  View.canon [⟨rO0, k0_pay3 (View.ld x0 rX0) (View.ld x1 rW0)⟩]
def out0_4 (x0 : Vec F S2048x1024 .f32) (x1 : Vec F S1024x192 .f32) : Vec F S2048x64 .f32 :=
  View.canon [⟨rO0, k0_pay4 (View.ld x0 rX0) (View.ld x1 rW0)⟩]

/-- One store of the whole buffer covers it. -/
theorem cover0 (p0 : Vec F S2048x64 .f32) (y : S2048x64.Idx) :
    ∃ pc ∈ ([⟨rO0, p0⟩] : List (View.Piece (Elt F) S2048x64 .f32)), y ∈ pc.1.set :=
  View.cover_of_tiled [⟨rO0, p0⟩] S2048x64.size (by rfl) y

set_option maxHeartbeats 1000000 in
/-- The body on whole staging memrefs: the inputs are left as found, each output ends at its function of them. -/
theorem sound_kernel0 (c : Dev nD) (E : Set ℕ) (i : grid0.Coords)
    (arg1 : Memref sig .tc .vmem S2048x1024 .f32) (harg1 : arg1.IsWhole) (arg2 : Memref sig .tc .vmem S1024x192 .f32) (harg2 : arg2.IsWhole)
    (arg3 : Memref sig .tc .vmem S2048x64 .f32) (harg3 : arg3.IsWhole) (arg4 : Memref sig .tc .vmem S2048x64 .f32) (harg4 : arg4.IsWhole)
    (arg5 : Memref sig .tc .vmem S2048x64 .f32) (harg5 : arg5.IsWhole)
    (x0 : Vec F S2048x1024 .f32) (x1 : Vec F S1024x192 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

/-- Region 0's proof data: the arrays as the region finds them; after the body each input's buffer at its block and
    each output's at its function of the input blocks; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

/-! # Region 1: attention -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rQ1 : Rect S1x1024x64 := Rect.unit (s := S1x1024x64) ![0, 0, 0] S1x1024x64.size inb_S1x1024x64_S1x1024x64_0_0_0
abbrev rK1 : Rect S1x2048x64 := Rect.unit (s := S1x2048x64) ![0, 0, 0] S1x2048x64.size inb_S1x2048x64_S1x2048x64_0_0_0

/-- What the body leaves in the output's staging buffer at grid coordinates `i`, from the three input blocks. -/
def out1_3 (i : grid1.Coords) (x0 : Vec F S1x1024x64 .f32) (x1 x2 : Vec F S1x2048x64 .f32) : Vec F S1x1024x64 .f32 :=
  View.canon [⟨rQ1, k1_pay1 i (View.ld x0 rQ1) (View.ld x1 rK1) (View.ld x2 rK1)⟩]

theorem cover1 (p0 : Vec F S1x1024x64 .f32) (y : S1x1024x64.Idx) :
    ∃ pc ∈ ([⟨rQ1, p0⟩] : List (View.Piece (Elt F) S1x1024x64 .f32)), y ∈ pc.1.set :=
  View.cover_of_tiled [⟨rQ1, p0⟩] S1x1024x64.size (by rfl) y

set_option maxHeartbeats 1000000 in
theorem sound_kernel1 (c : Dev nD) (E : Set ℕ) (i : grid1.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x64 .f32) (harg5 : arg5.IsWhole)
    (x0 : Vec F S1x1024x64 .f32) (x1 x2 : Vec F S1x2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 i x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.RunKI.lean ====
/-
  The program's run as a chain of four segments — the concatenation and the reshape of the input, the projection
  region, the three reshapes of its results, the attention region — with every unscoped buffer's contents named at
  each boundary: `W0` the launch memory, `W1` after the first host operations, `W2` with region 0's three output
  arrays at what its write-backs leave, `W3` after the reshapes, `W4` with region 1's output array at what its
  write-backs leave. No segment writes an argument array, so each reaches the end as launched.
-/
import proofs.«154036_j14757507629205_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the two stretches writes and no region's window names keeps its launch
    contents to the end. -/
theorem W4_keep (c : Dev nD) (b : Ref sig .tc) (h0 : ∀ w, Pipeline.arrRef spec0 w ≠ b) (h1 : ∀ w, Pipeline.arrRef spec1 w ≠ b)
    (hw0 : b ∉ ([main_v0, main_v1] : List (Ref sig .tc))) (hw1 : b ∉ ([main_v3, main_v4, main_v5] : List (Ref sig .tc))) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          refine ⟨?_, ?_, ?_⟩
          · exact StableHlo.devRef_ne_of_ne (fun e => hw1 (by rw [e]; simp))
          · exact StableHlo.devRef_ne_of_ne (fun e => hw1 (by rw [e]; simp))
          · exact StableHlo.devRef_ne_of_ne (fun e => hw1 (by rw [e]; simp))))
    _ = W1 m ρ c (Proc.devRef .tc b) := W2_of_ne m ρ c b h0
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          refine ⟨?_, ?_⟩
          · exact StableHlo.devRef_ne_of_ne (fun e => hw0 (by rw [e]; simp))
          · exact StableHlo.devRef_ne_of_ne (fun e => hw0 (by rw [e]; simp))))
    _ = m ((c : Thread nD τ).loc b) := rfl

theorem W4_main_arg0 (c : Dev nD) : W4 m ρ c (Proc.devRef .tc main_arg0) = m ((c : Thread nD τ).loc main_arg0) :=
  W4_keep m ρ c main_arg0 (by decide) (by decide) (by decide) (by decide)
theorem W4_main_arg1 (c : Dev nD) : W4 m ρ c (Proc.devRef .tc main_arg1) = m ((c : Thread nD τ).loc main_arg1) :=
  W4_keep m ρ c main_arg1 (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/-
  Causal single-head attention over a projected sequence, as one function of the argument arrays on the
  extended reals: the projections q, k, v are rows of x times a weight matrix; a score is the dot product
  of a query row and a key row scaled by 1/32; a key position after the query's is masked to -∞; the
  weights are the exponentials of the masked scores less their row maximum; the result is the
  weighted sum of the value rows divided by the sum of the weights. Two arrangements of the last step
  are stated: the quotient of the weighted sum (`attnK`) and the sum weighted by the quotients (`attnR`).
-/
import Idealize.ShloMosaic.PureOps.Ideal
import Idealize.ShloMosaic.Lib.ValueIdx

noncomputable section

namespace Cert.Attn

open Idealize.ShloMosaic
open scoped BigOperators

/-- An array of rank 3 read by its three coordinates. -/
def arr3 {n0 n1 n2 : Nat} (x : (⟨3, ![n0, n1, n2]⟩ : Shape).Idx → EReal) : Fin n0 → Fin n1 → Fin n2 → EReal :=
  fun a b c => x (ValueIdx.ix3 a b c)

/-- An array of rank 2 read by its two coordinates. -/
def arr2 {n0 n1 : Nat} (x : (⟨2, ![n0, n1]⟩ : Shape).Idx → EReal) : Fin n0 → Fin n1 → EReal :=
  fun a b => x (ValueIdx.ix2 a b)

/-- The scale 1/32 (the reciprocal square root of the embedding dimension 1024). -/
abbrev c32 : EReal := ((1 / 32 : ℝ) : EReal)

/-- A projection: row `(b, s)` of `x` against column `d` of `w`. -/
def proj (x : Fin 4 → Fin 2048 → Fin 1024 → EReal) (w : Fin 1024 → Fin 64 → EReal)
    (b : Fin 4) (s : Fin 2048) (d : Fin 64) : EReal := ∑ e : Fin 1024, x b s e * w e d

/-- The dot product of query row `s` and key row `j` of batch `b`. -/
def dotq (q k : Fin 4 → Fin 2048 → Fin 64 → EReal) (b : Fin 4) (s j : Fin 2048) : EReal :=
  ∑ d : Fin 64, q b s d * k b j d

/-- The masked, scaled score: `-∞` at a key position after the query's. -/
def msk (q k : Fin 4 → Fin 2048 → Fin 64 → EReal) (b : Fin 4) (s j : Fin 2048) : EReal :=
  if j.val ≤ s.val then dotq q k b s j * c32 else ⊥

/-- The maximum of row `s`'s masked scores. -/
def rmax (q k : Fin 4 → Fin 2048 → Fin 64 → EReal) (b : Fin 4) (s : Fin 2048) : EReal :=
  (Finset.univ : Finset (Fin 2048)).fold max ⊥ (fun j => msk q k b s j)

/-- The unnormalised weight of key `j` for query `s`. -/
def pexp (q k : Fin 4 → Fin 2048 → Fin 64 → EReal) (b : Fin 4) (s j : Fin 2048) : EReal :=
  Ideal.exp (msk q k b s j - rmax q k b s)

/-- The sum of row `s`'s weights. -/
def den (q k : Fin 4 → Fin 2048 → Fin 64 → EReal) (b : Fin 4) (s : Fin 2048) : EReal :=
  ∑ j : Fin 2048, pexp q k b s j

/-- The weighted sum of the value rows, then the quotient by the weights' sum. -/
def attnK (q k v : Fin 4 → Fin 2048 → Fin 64 → EReal) (b : Fin 4) (s : Fin 2048) (h : Fin 64) : EReal :=
  Ideal.div (∑ j : Fin 2048, pexp q k b s j * v b j h) (den q k b s)

/-- The value rows weighted by the normalised weights. -/
def attnR (q k v : Fin 4 → Fin 2048 → Fin 64 → EReal) (b : Fin 4) (s : Fin 2048) (h : Fin 64) : EReal :=
  ∑ j : Fin 2048, Ideal.div (pexp q k b s j) (den q k b s) * v b j h

end Cert.Attn

end
-- ==== Proof.ValueKI.lean ====
/-
  What the two regions leave in their output arrays, at the exact float instance, as functions of the arrays each
  region finds: the projection region's three outputs are rows of the reshaped input against 64 columns of the
  concatenated weights; the attention region's output is, per batch and query row, the masked, exponentiated and
  normalised scores against the value rows.
-/
import proofs.«154036_j14757507629205_2_alg».proof.Proof.RunKI
import proofs.«154036_j14757507629205_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)
open scoped BigOperators

/-- The bodies' arithmetic read at an index: the facts about the printed payloads this module builds on. -/
structure PayFacts : Prop where
  pay1 : ∀ (i : grid1.Coords) (x0 : Vec Ideal S1x1024x64 .f32) (x1 x2 : Vec Ideal S1x2048x64 .f32)
    (Q K Vv : Fin 4 → Fin 2048 → Fin 64 → EReal) (b : Fin 4) (qi : Fin 2) (hi : (i 1).val = qi.val)
    (h0 : ∀ (r : Fin 1024) (d : Fin 64), x0 (ix3 (0 : Fin 1) r d) = Q b ⟨1024 * qi.val + r.val, by omega⟩ d)
    (h1 : ∀ (j : Fin 2048) (d : Fin 64), x1 (ix3 (0 : Fin 1) j d) = K b j d)
    (h2 : ∀ (j : Fin 2048) (d : Fin 64), x2 (ix3 (0 : Fin 1) j d) = Vv b j d)
    (r : Fin 1024) (h : Fin 64),
    k1_pay1 (F := Ideal) i x0 x1 x2 (ix3 (0 : Fin 1) r h) = attnK Q K Vv b ⟨1024 * qi.val + r.val, by omega⟩ h
  pay2 : ∀ (x0 : Vec Ideal S2048x1024 .f32) (x1 : Vec Ideal S1024x192 .f32) (y : Fin 2048) (d : Fin 64),
    k0_pay2 (F := Ideal) x0 x1 (ix2 y d) = ∑ e : Fin 1024, x0 (ix2 y e) * x1 (ix2 e ⟨d.val, by omega⟩)
  pay3 : ∀ (x0 : Vec Ideal S2048x1024 .f32) (x1 : Vec Ideal S1024x192 .f32) (y : Fin 2048) (d : Fin 64),
    k0_pay3 (F := Ideal) x0 x1 (ix2 y d) = ∑ e : Fin 1024, x0 (ix2 y e) * x1 (ix2 e ⟨d.val + 64, by omega⟩)
  pay4 : ∀ (x0 : Vec Ideal S2048x1024 .f32) (x1 : Vec Ideal S1024x192 .f32) (y : Fin 2048) (d : Fin 64),
    k0_pay4 (F := Ideal) x0 x1 (ix2 y d) = ∑ e : Fin 1024, x0 (ix2 y e) * x1 (ix2 e ⟨d.val + 128, by omega⟩)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 0 -/

/-- Rows of `X` against the 64 columns of `Wc` starting at column `off`. -/
def G0 (off : Nat) (hoff : off + 64 ≤ 192) (X : S8192x1024.Idx → EReal) (Wc : S1024x192.Idx → EReal) : S8192x64.Idx → EReal :=
  fun i => ∑ e : Fin 1024, X (ix2 (Fin.mk (i 0).val (i 0).isLt : Fin 8192) e) * Wc (ix2 e (Fin.mk ((i 1).val + off) (by have := (i 1).isLt; show _ < 192; change (i 1).val < 64 at this; omega) : Fin 192))

/-- The printed index maps of region 0, decided over its four points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem flushed0_2 (P : PayFacts) (c : Dev nD) (t : Fin cfg0.N) :
    (dat0 V c).flushed 2 t = ((cfg0.win 2).blk t).view.read (Elt Ideal) (G0 0 (by omega) (V c main_v1) (V c main_v0)) := by
  show (cfg0.win 2).cut (grid0.coords t) ((dat0 V c).after 2 t) = _
  rw [after0_2]
  unfold out0_2
  rw [View.canon_unit_zero hz2]
  simp only [View.ld_unit_zero (S := S2048x1024) hz2, View.ld_unit_zero (S := S1024x192) hz2]
  funext j
  obtain ⟨y, d, rfl⟩ : ∃ (y : Fin 2048) (d : Fin 64), j = (ix2 y d : S2048x64.Idx) := ⟨j 0, j 1, eq_ix2 (n0 := 2048) (n1 := 64) j⟩
  show k0_pay2 (iblk0 V c 0 t) (iblk0 V c 1 t) (ix2 y d) = G0 0 (by omega) (V c main_v1) (V c main_v0) (((cfg0.win 2).blk t).view.emb (ix2 y d))
  refine (P.pay2 _ _ y d).trans ?_
  unfold G0
  obtain ⟨e00, e01, e10, e11, e20, e21, e30, e31, e40, e41⟩ := idx_facts0 t
  refine Finset.sum_congr rfl fun e _ => ?_
  refine congrArg₂ (· * ·) ?_ ?_
  · show V c main_v1 (((cfg0.win 0).blk t).view.emb (ix2 y e)) = V c main_v1 _
    refine congrArg _ (funext fun a => Fin.ext ?_)
    match a with
    | ⟨0, _⟩ => show win0_0.index t (0 : Fin 2) * 2048 + 1 * y.val = win0_2.index t (0 : Fin 2) * 2048 + 1 * y.val; omega
    | ⟨1, _⟩ => show win0_0.index t (1 : Fin 2) * 1024 + 1 * e.val = e.val; omega
  · show V c main_v0 (((cfg0.win 1).blk t).view.emb (ix2 e _)) = V c main_v0 _
    refine congrArg _ (funext fun a => Fin.ext ?_)
    match a with
    | ⟨0, _⟩ => show win0_1.index t (0 : Fin 2) * 1024 + 1 * e.val = e.val; omega
    | ⟨1, _⟩ => show win0_1.index t (1 : Fin 2) * 192 + 1 * (d.val) = win0_2.index t (1 : Fin 2) * 64 + 1 * d.val + 0; omega

theorem mem_blk0_2 (t : Fin cfg0.N) (i : S8192x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v2_0).slice (win0_2.rect t)).set ↔ _
  rw [View.set_slice_whole, Rect.mem_set_unit]
  exact Iff.rfl

theorem cover0_2 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨e00, e01, e10, e11, e20, e21, e30, e31, e40, e41⟩ := idx_facts0 t
  refine ⟨t, flush0_2 t, ?_⟩
  rw [mem_blk0_2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- Region 0's output array 0 after its run. -/
theorem final0_2 (P : PayFacts) (c : Dev nD) : (dat0 V c).arrAt 2 cfg0.N = G0 0 (by omega) (V c main_v1) (V c main_v0) :=
  (dat0 V c).arrAt_eq_of_cover 2 _ (fun t _ => flushed0_2 V P c t) (cover0_2)

theorem flushed0_3 (P : PayFacts) (c : Dev nD) (t : Fin cfg0.N) :
    (dat0 V c).flushed 3 t = ((cfg0.win 3).blk t).view.read (Elt Ideal) (G0 64 (by omega) (V c main_v1) (V c main_v0)) := by
  show (cfg0.win 3).cut (grid0.coords t) ((dat0 V c).after 3 t) = _
  rw [after0_3]
  unfold out0_3
  rw [View.canon_unit_zero hz2]
  simp only [View.ld_unit_zero (S := S2048x1024) hz2, View.ld_unit_zero (S := S1024x192) hz2]
  funext j
  obtain ⟨y, d, rfl⟩ : ∃ (y : Fin 2048) (d : Fin 64), j = (ix2 y d : S2048x64.Idx) := ⟨j 0, j 1, eq_ix2 (n0 := 2048) (n1 := 64) j⟩
  show k0_pay3 (iblk0 V c 0 t) (iblk0 V c 1 t) (ix2 y d) = G0 64 (by omega) (V c main_v1) (V c main_v0) (((cfg0.win 3).blk t).view.emb (ix2 y d))
  refine (P.pay3 _ _ y d).trans ?_
  unfold G0
  obtain ⟨e00, e01, e10, e11, e20, e21, e30, e31, e40, e41⟩ := idx_facts0 t
  refine Finset.sum_congr rfl fun e _ => ?_
  refine congrArg₂ (· * ·) ?_ ?_
  · show V c main_v1 (((cfg0.win 0).blk t).view.emb (ix2 y e)) = V c main_v1 _
    refine congrArg _ (funext fun a => Fin.ext ?_)
    match a with
    | ⟨0, _⟩ => show win0_0.index t (0 : Fin 2) * 2048 + 1 * y.val = win0_3.index t (0 : Fin 2) * 2048 + 1 * y.val; omega
    | ⟨1, _⟩ => show win0_0.index t (1 : Fin 2) * 1024 + 1 * e.val = e.val; omega
  · show V c main_v0 (((cfg0.win 1).blk t).view.emb (ix2 e _)) = V c main_v0 _
    refine congrArg _ (funext fun a => Fin.ext ?_)
    match a with
    | ⟨0, _⟩ => show win0_1.index t (0 : Fin 2) * 1024 + 1 * e.val = e.val; omega
    | ⟨1, _⟩ => show win0_1.index t (1 : Fin 2) * 192 + 1 * (d.val + 64) = win0_3.index t (1 : Fin 2) * 64 + 1 * d.val + 64; omega

theorem mem_blk0_3 (t : Fin cfg0.N) (i : S8192x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v2_1).slice (win0_3.rect t)).set ↔ _
  rw [View.set_slice_whole, Rect.mem_set_unit]
  exact Iff.rfl

theorem cover0_3 (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨e00, e01, e10, e11, e20, e21, e30, e31, e40, e41⟩ := idx_facts0 t
  refine ⟨t, flush0_3 t, ?_⟩
  rw [mem_blk0_3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 64 ≤ (i 1).val ∧ (i 1).val < win0_3.index t (1 : Fin 2) * 64 + 64; omega

/-- Region 0's output array 1 after its run. -/
theorem final0_3 (P : PayFacts) (c : Dev nD) : (dat0 V c).arrAt 3 cfg0.N = G0 64 (by omega) (V c main_v1) (V c main_v0) :=
  (dat0 V c).arrAt_eq_of_cover 3 _ (fun t _ => flushed0_3 V P c t) (cover0_3)

theorem flushed0_4 (P : PayFacts) (c : Dev nD) (t : Fin cfg0.N) :
    (dat0 V c).flushed 4 t = ((cfg0.win 4).blk t).view.read (Elt Ideal) (G0 128 (by omega) (V c main_v1) (V c main_v0)) := by
  show (cfg0.win 4).cut (grid0.coords t) ((dat0 V c).after 4 t) = _
  rw [after0_4]
  unfold out0_4
  rw [View.canon_unit_zero hz2]
  simp only [View.ld_unit_zero (S := S2048x1024) hz2, View.ld_unit_zero (S := S1024x192) hz2]
  funext j
  obtain ⟨y, d, rfl⟩ : ∃ (y : Fin 2048) (d : Fin 64), j = (ix2 y d : S2048x64.Idx) := ⟨j 0, j 1, eq_ix2 (n0 := 2048) (n1 := 64) j⟩
  show k0_pay4 (iblk0 V c 0 t) (iblk0 V c 1 t) (ix2 y d) = G0 128 (by omega) (V c main_v1) (V c main_v0) (((cfg0.win 4).blk t).view.emb (ix2 y d))
  refine (P.pay4 _ _ y d).trans ?_
  unfold G0
  obtain ⟨e00, e01, e10, e11, e20, e21, e30, e31, e40, e41⟩ := idx_facts0 t
  refine Finset.sum_congr rfl fun e _ => ?_
  refine congrArg₂ (· * ·) ?_ ?_
  · show V c main_v1 (((cfg0.win 0).blk t).view.emb (ix2 y e)) = V c main_v1 _
    refine congrArg _ (funext fun a => Fin.ext ?_)
    match a with
    | ⟨0, _⟩ => show win0_0.index t (0 : Fin 2) * 2048 + 1 * y.val = win0_4.index t (0 : Fin 2) * 2048 + 1 * y.val; omega
    | ⟨1, _⟩ => show win0_0.index t (1 : Fin 2) * 1024 + 1 * e.val = e.val; omega
  · show V c main_v0 (((cfg0.win 1).blk t).view.emb (ix2 e _)) = V c main_v0 _
    refine congrArg _ (funext fun a => Fin.ext ?_)
    match a with
    | ⟨0, _⟩ => show win0_1.index t (0 : Fin 2) * 1024 + 1 * e.val = e.val; omega
    | ⟨1, _⟩ => show win0_1.index t (1 : Fin 2) * 192 + 1 * (d.val + 128) = win0_4.index t (1 : Fin 2) * 64 + 1 * d.val + 128; omega

theorem mem_blk0_4 (t : Fin cfg0.N) (i : S8192x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v2_2).slice (win0_4.rect t)).set ↔ _
  rw [View.set_slice_whole, Rect.mem_set_unit]
  exact Iff.rfl

theorem cover0_4 (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨e00, e01, e10, e11, e20, e21, e30, e31, e40, e41⟩ := idx_facts0 t
  refine ⟨t, flush0_4 t, ?_⟩
  rw [mem_blk0_4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-- Region 0's output array 2 after its run. -/
theorem final0_4 (P : PayFacts) (c : Dev nD) : (dat0 V c).arrAt 4 cfg0.N = G0 128 (by omega) (V c main_v1) (V c main_v0) :=
  (dat0 V c).arrAt_eq_of_cover 4 _ (fun t _ => flushed0_4 V P c t) (cover0_4)

/-! ## Region 1 -/

/-- Causal attention of the three arrays the region finds, read by coordinates. -/
def G1 (Qa Ka Va : S4x2048x64.Idx → EReal) : S4x2048x64.Idx → EReal :=
  fun i => attnK (arr3 Qa) (arr3 Ka) (arr3 Va) (Fin.mk (i 0).val (i 0).isLt : Fin 4) (Fin.mk (i 1).val (i 1).isLt : Fin 2048) (Fin.mk (i 2).val (i 2).isLt : Fin 64)

/-- The printed index maps of region 1 and the grid's coordinates, decided over its eight points. -/
theorem idx_facts1 : ∀ t : Fin cfg1.N, (grid1.coords t 1).val = t.val % 2
    ∧ win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

theorem flushed1_3 (P : PayFacts) (c : Dev nD) (t : Fin cfg1.N) :
    (dat1 V c).flushed 3 t = ((cfg1.win 3).blk t).view.read (Elt Ideal) (G1 (V c main_v3) (V c main_v4) (V c main_v5)) := by
  show (cfg1.win 3).cut (grid1.coords t) ((dat1 V c).after 3 t) = _
  rw [after1_3]
  unfold out1_3
  rw [View.canon_unit_zero hz3]
  simp only [View.ld_unit_zero (S := S1x1024x64) hz3, View.ld_unit_zero (S := S1x2048x64) hz3]
  funext j
  obtain ⟨z, r, h, rfl⟩ : ∃ (z : Fin 1) (r : Fin 1024) (h : Fin 64), j = (ix3 z r h : S1x1024x64.Idx) :=
    ⟨j 0, j 1, j 2, eq_ix3 (n0 := 1) (n1 := 1024) (n2 := 64) j⟩
  obtain rfl : z = 0 := Subsingleton.elim _ _
  show k1_pay1 (grid1.coords t) (iblk1 V c 0 t) (iblk1 V c 1 t) (iblk1 V c 2 t) (ix3 (0 : Fin 1) r h)
    = G1 (V c main_v3) (V c main_v4) (V c main_v5) (((cfg1.win 3).blk t).view.emb (ix3 (0 : Fin 1) r h))
  obtain ⟨ec, e00, e01, e02, e10, e11, e12, e20, e21, e22, e30, e31, e32⟩ := idx_facts1 t
  have hN : cfg1.N = 8 := N_1
  have htl : t.val < 8 := hN ▸ t.isLt
  refine (P.pay1 (grid1.coords t) _ _ _ (arr3 (V c main_v3)) (arr3 (V c main_v4)) (arr3 (V c main_v5))
    ⟨t.val / 2, by omega⟩ ⟨t.val % 2, by omega⟩ ec ?_ ?_ ?_ r h).trans ?_
  · intro r d
    show V c main_v3 (((cfg1.win 0).blk t).view.emb (ix3 (0 : Fin 1) r d)) = V c main_v3 _
    refine congrArg _ (funext fun a => Fin.ext ?_)
    match a with
    | ⟨0, _⟩ => show win1_0.index t (0 : Fin 3) * 1 + 1 * 0 = t.val / 2; omega
    | ⟨1, _⟩ => show win1_0.index t (1 : Fin 3) * 1024 + 1 * r.val = 1024 * (t.val % 2) + r.val; omega
    | ⟨2, _⟩ => show win1_0.index t (2 : Fin 3) * 64 + 1 * d.val = d.val; omega
  · intro j d
    show V c main_v4 (((cfg1.win 1).blk t).view.emb (ix3 (0 : Fin 1) j d)) = V c main_v4 _
    refine congrArg _ (funext fun a => Fin.ext ?_)
    match a with
    | ⟨0, _⟩ => show win1_1.index t (0 : Fin 3) * 1 + 1 * 0 = t.val / 2; omega
    | ⟨1, _⟩ => show win1_1.index t (1 : Fin 3) * 2048 + 1 * j.val = j.val; omega
    | ⟨2, _⟩ => show win1_1.index t (2 : Fin 3) * 64 + 1 * d.val = d.val; omega
  · intro j d
    show V c main_v5 (((cfg1.win 2).blk t).view.emb (ix3 (0 : Fin 1) j d)) = V c main_v5 _
    refine congrArg _ (funext fun a => Fin.ext ?_)
    match a with
    | ⟨0, _⟩ => show win1_2.index t (0 : Fin 3) * 1 + 1 * 0 = t.val / 2; omega
    | ⟨1, _⟩ => show win1_2.index t (1 : Fin 3) * 2048 + 1 * j.val = j.val; omega
    | ⟨2, _⟩ => show win1_2.index t (2 : Fin 3) * 64 + 1 * d.val = d.val; omega
  · unfold G1
    refine congr (congr (congrArg (attnK _ _ _) (Fin.ext ?_)) (Fin.ext ?_)) (Fin.ext ?_)
    · show t.val / 2 = win1_3.index t (0 : Fin 3) * 1 + 1 * 0; omega
    · show 1024 * (t.val % 2) + r.val = win1_3.index t (1 : Fin 3) * 1024 + 1 * r.val; omega
    · show h.val = win1_3.index t (2 : Fin 3) * 64 + 1 * h.val; omega

theorem mem_blk1_3 (t : Fin cfg1.N) (i : S4x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v6).slice (win1_3.rect t)).set ↔ _
  rw [View.set_slice_whole, Rect.mem_set_unit]
  exact Iff.rfl

theorem cover1_3 (i : S4x2048x64.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 64 := (i 2).isLt
  have hN : cfg1.N = 8 := N_1
  obtain ⟨t, ht⟩ : ∃ t : Fin cfg1.N, t.val = (i 0).val * 2 + (i 1).val / 1024 := ⟨⟨(i 0).val * 2 + (i 1).val / 1024, by rw [hN]; omega⟩, rfl⟩
  obtain ⟨ec, e00, e01, e02, e10, e11, e12, e20, e21, e22, e30, e31, e32⟩ := idx_facts1 t
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- Region 1's output array after its run. -/
theorem final1_3 (P : PayFacts) (c : Dev nD) : (dat1 V c).arrAt 3 cfg1.N = G1 (V c main_v3) (V c main_v4) (V c main_v5) :=
  (dat1 V c).arrAt_eq_of_cover 3 _ (fun t _ => flushed1_3 V P c t) (cover1_3)

end Cert.KernelIdeal.Hand

end
-- ==== Proof.OutKI.lean ====
/-
  The kernel program's result array as a function of its argument arrays, at the exact float instance: the host
  operations around the two regions are read at an index — the reshape of the input to 8192 rows, the three weight
  matrices side by side, the reshape of each projection back to batches — and composed with what the regions
  leave, giving causal attention of the three projections of the input.
-/
import proofs.«154036_j14757507629205_2_alg».proof.Proof.ValueKI
import Idealize.ShloMosaic.Lib.StableHlo.Run

set_option maxRecDepth 16384

noncomputable section

namespace Cert.KernelIdeal.Hand

open Cert.KernelIdeal Cert.KernelIdeal.Gen Cert.Attn
open Idealize.ShloMosaic Idealize.ShloMosaic.TcCoe Idealize.ShloMosaic.ValueIdx Idealize.ShloMosaic.StableHlo
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The host operations before region 0 -/

/-- The input reshaped to 8192 rows. -/
theorem V1_v1 (c : Dev nD) : (V1 m ρ c main_v1 : S8192x1024.Idx → EReal)
    = fun i => shapeCast S8192x1024 (m ((c : Thread nD τ).loc main_arg0)) shapeCasts_S4x2048x1024_S8192x1024 i := by
  dsimp only [V1, W1, W0, hostOps0]; after_results; rfl

/-- The three weight matrices side by side. -/
theorem V1_v0 (c : Dev nD) : (V1 m ρ c main_v0 : S1024x192.Idx → EReal)
    = concatenate S1024x192 1 [⟨S1024x64, m ((c : Thread nD τ).loc main_arg1)⟩, ⟨S1024x64, m ((c : Thread nD τ).loc main_arg2)⟩, ⟨S1024x64, m ((c : Thread nD τ).loc main_arg3)⟩]
        concatenates_S1024x64_S1024x64_S1024x64_S1024x192_d1 := by
  dsimp only [V1, W1, W0, hostOps0]; after_results; rfl

/-- Row `2048 b + s` of the reshaped input is row `(b, s)` of the input. -/
theorem x2d_eq (c : Dev nD) (b : Fin 4) (s : Fin 2048) (e : Fin 1024) :
    V1 m ρ c main_v1 (ix2 (⟨2048 * b.val + s.val, by omega⟩ : Fin 8192) e) = arr3 (m ((c : Thread nD τ).loc main_arg0)) b s e := by
  rw [V1_v1]
  refine shapeCast_apply _ _ _ (ix3 b s e) ?_
  rw [Shape.rowMajor_val_two, Shape.rowMajor_val_three]
  show (b.val * 2048 + s.val) * 1024 + e.val = (2048 * b.val + s.val) * 1024 + e.val
  omega

/-! ## The host operations between the regions -/

theorem V3_v3 (c : Dev nD) : (V3 m ρ c main_v3 : S4x2048x64.Idx → EReal)
    = fun i => shapeCast S4x2048x64 (W2 m ρ c (Proc.devRef .tc main_v2_0)) shapeCasts_S8192x64_S4x2048x64 i := by
  dsimp only [V3, W3, hostOps1]; after_results; rfl
theorem V3_v4 (c : Dev nD) : (V3 m ρ c main_v4 : S4x2048x64.Idx → EReal)
    = fun i => shapeCast S4x2048x64 (W2 m ρ c (Proc.devRef .tc main_v2_1)) shapeCasts_S8192x64_S4x2048x64 i := by
  dsimp only [V3, W3, hostOps1]; after_results; rfl
theorem V3_v5 (c : Dev nD) : (V3 m ρ c main_v5 : S4x2048x64.Idx → EReal)
    = fun i => shapeCast S4x2048x64 (W2 m ρ c (Proc.devRef .tc main_v2_2)) shapeCasts_S8192x64_S4x2048x64 i := by
  dsimp only [V3, W3, hostOps1]; after_results; rfl

/-- The concatenated weights at column `d + 0` are piece 0's at column `d`. -/
theorem wcat_q (c : Dev nD) (e : Fin 1024) (d : Fin 64) :
    V1 m ρ c main_v0 (ix2 e (⟨d.val + 0, by omega⟩ : Fin 192)) = m ((c : Thread nD τ).loc main_arg1) (ix2 e d) := by
  rw [V1_v0]
  refine concatenate_apply_piece (t := S1024x192) (1 : Fin 2) _ _ _ 0 (by simp) S1024x64 _ rfl rfl 0 (by rfl) (ix2 e d) ?_ ?_
  · intro b hb
    match b with
    | ⟨0, _⟩ => rfl
    | ⟨1, _⟩ => exact absurd rfl hb
  · show 0 + d.val = d.val + 0; omega

/-- Region 0's output 0 at row `2048 b + s`, column `d`, is the projection of row `(b, s)`. -/
theorem v2_0_eq (P : PayFacts) (c : Dev nD) (b : Fin 4) (s : Fin 2048) (d : Fin 64) :
    (W2 m ρ c (Proc.devRef .tc main_v2_0) : S8192x64.Idx → EReal) (ix2 (⟨2048 * b.val + s.val, by omega⟩ : Fin 8192) d)
      = proj (arr3 (m ((c : Thread nD τ).loc main_arg0))) (arr2 (m ((c : Thread nD τ).loc main_arg1))) b s d := by
  have h1 : (W2 m ρ c (Proc.devRef .tc main_v2_0) : S8192x64.Idx → EReal) = G0 0 (by omega) (V1 m ρ c main_v1) (V1 m ρ c main_v0) :=
    (W2_arr m ρ c 2).trans (final0_2 (V1 m ρ) P c)
  refine (congrFun h1 _).trans ?_
  unfold G0 proj
  show @Eq EReal _ _
  refine Finset.sum_congr rfl fun e _ => ?_
  refine congrArg₂ (· * ·) ?_ ?_
  · exact x2d_eq m ρ c b s e
  · exact wcat_q m ρ c e d

/-- The reshaped output 0 read by coordinates is the projection. -/
theorem v3_eq (P : PayFacts) (c : Dev nD) :
    arr3 (V3 m ρ c main_v3) = proj (arr3 (m ((c : Thread nD τ).loc main_arg0))) (arr2 (m ((c : Thread nD τ).loc main_arg1))) := by
  funext b s d
  show V3 m ρ c main_v3 (ix3 b s d) = _
  rw [V3_v3]
  refine (shapeCast_apply _ _ (ix3 b s d) (ix2 (⟨2048 * b.val + s.val, by omega⟩ : Fin 8192) d) ?_).trans (v2_0_eq m ρ P c b s d)
  rw [Shape.rowMajor_val_two, Shape.rowMajor_val_three]
  show (2048 * b.val + s.val) * 64 + d.val = (b.val * 2048 + s.val) * 64 + d.val
  omega

/-- The concatenated weights at column `d + 64` are piece 1's at column `d`. -/
theorem wcat_k (c : Dev nD) (e : Fin 1024) (d : Fin 64) :
    V1 m ρ c main_v0 (ix2 e (⟨d.val + 64, by omega⟩ : Fin 192)) = m ((c : Thread nD τ).loc main_arg2) (ix2 e d) := by
  rw [V1_v0]
  refine concatenate_apply_piece (t := S1024x192) (1 : Fin 2) _ _ _ 1 (by simp) S1024x64 _ rfl rfl 64 (by rfl) (ix2 e d) ?_ ?_
  · intro b hb
    match b with
    | ⟨0, _⟩ => rfl
    | ⟨1, _⟩ => exact absurd rfl hb
  · show 64 + d.val = d.val + 64; omega

/-- Region 0's output 1 at row `2048 b + s`, column `d`, is the projection of row `(b, s)`. -/
theorem v2_1_eq (P : PayFacts) (c : Dev nD) (b : Fin 4) (s : Fin 2048) (d : Fin 64) :
    (W2 m ρ c (Proc.devRef .tc main_v2_1) : S8192x64.Idx → EReal) (ix2 (⟨2048 * b.val + s.val, by omega⟩ : Fin 8192) d)
      = proj (arr3 (m ((c : Thread nD τ).loc main_arg0))) (arr2 (m ((c : Thread nD τ).loc main_arg2))) b s d := by
  have h1 : (W2 m ρ c (Proc.devRef .tc main_v2_1) : S8192x64.Idx → EReal) = G0 64 (by omega) (V1 m ρ c main_v1) (V1 m ρ c main_v0) :=
    (W2_arr m ρ c 3).trans (final0_3 (V1 m ρ) P c)
  refine (congrFun h1 _).trans ?_
  unfold G0 proj
  show @Eq EReal _ _
  refine Finset.sum_congr rfl fun e _ => ?_
  refine congrArg₂ (· * ·) ?_ ?_
  · exact x2d_eq m ρ c b s e
  · exact wcat_k m ρ c e d

/-- The reshaped output 1 read by coordinates is the projection. -/
theorem v4_eq (P : PayFacts) (c : Dev nD) :
    arr3 (V3 m ρ c main_v4) = proj (arr3 (m ((c : Thread nD τ).loc main_arg0))) (arr2 (m ((c : Thread nD τ).loc main_arg2))) := by
  funext b s d
  show V3 m ρ c main_v4 (ix3 b s d) = _
  rw [V3_v4]
  refine (shapeCast_apply _ _ (ix3 b s d) (ix2 (⟨2048 * b.val + s.val, by omega⟩ : Fin 8192) d) ?_).trans (v2_1_eq m ρ P c b s d)
  rw [Shape.rowMajor_val_two, Shape.rowMajor_val_three]
  show (2048 * b.val + s.val) * 64 + d.val = (b.val * 2048 + s.val) * 64 + d.val
  omega

/-- The concatenated weights at column `d + 128` are piece 2's at column `d`. -/
theorem wcat_v (c : Dev nD) (e : Fin 1024) (d : Fin 64) :
    V1 m ρ c main_v0 (ix2 e (⟨d.val + 128, by omega⟩ : Fin 192)) = m ((c : Thread nD τ).loc main_arg3) (ix2 e d) := by
  rw [V1_v0]
  refine concatenate_apply_piece (t := S1024x192) (1 : Fin 2) _ _ _ 2 (by simp) S1024x64 _ rfl rfl 128 (by rfl) (ix2 e d) ?_ ?_
  · intro b hb
    match b with
    | ⟨0, _⟩ => rfl
    | ⟨1, _⟩ => exact absurd rfl hb
  · show 128 + d.val = d.val + 128; omega

/-- Region 0's output 2 at row `2048 b + s`, column `d`, is the projection of row `(b, s)`. -/
theorem v2_2_eq (P : PayFacts) (c : Dev nD) (b : Fin 4) (s : Fin 2048) (d : Fin 64) :
    (W2 m ρ c (Proc.devRef .tc main_v2_2) : S8192x64.Idx → EReal) (ix2 (⟨2048 * b.val + s.val, by omega⟩ : Fin 8192) d)
      = proj (arr3 (m ((c : Thread nD τ).loc main_arg0))) (arr2 (m ((c : Thread nD τ).loc main_arg3))) b s d := by
  have h1 : (W2 m ρ c (Proc.devRef .tc main_v2_2) : S8192x64.Idx → EReal) = G0 128 (by omega) (V1 m ρ c main_v1) (V1 m ρ c main_v0) :=
    (W2_arr m ρ c 4).trans (final0_4 (V1 m ρ) P c)
  refine (congrFun h1 _).trans ?_
  unfold G0 proj
  show @Eq EReal _ _
  refine Finset.sum_congr rfl fun e _ => ?_
  refine congrArg₂ (· * ·) ?_ ?_
  · exact x2d_eq m ρ c b s e
  · exact wcat_v m ρ c e d

/-- The reshaped output 2 read by coordinates is the projection. -/
theorem v5_eq (P : PayFacts) (c : Dev nD) :
    arr3 (V3 m ρ c main_v5) = proj (arr3 (m ((c : Thread nD τ).loc main_arg0))) (arr2 (m ((c : Thread nD τ).loc main_arg3))) := by
  funext b s d
  show V3 m ρ c main_v5 (ix3 b s d) = _
  rw [V3_v5]
  refine (shapeCast_apply _ _ (ix3 b s d) (ix2 (⟨2048 * b.val + s.val, by omega⟩ : Fin 8192) d) ?_).trans (v2_2_eq m ρ P c b s d)
  rw [Shape.rowMajor_val_two, Shape.rowMajor_val_three]
  show (2048 * b.val + s.val) * 64 + d.val = (b.val * 2048 + s.val) * 64 + d.val
  omega

/-! ## The result -/

/-- The program's result array at `(b, s, h)`: causal attention of the three projections of the input. -/
theorem out_eq (P : PayFacts) (c : Dev nD) (b : Fin 4) (s : Fin 2048) (h : Fin 64) :
    (W4 m ρ c (Proc.devRef .tc main_v6) : S4x2048x64.Idx → EReal) (ix3 b s h)
      = attnK (proj (arr3 (m ((c : Thread nD τ).loc main_arg0))) (arr2 (m ((c : Thread nD τ).loc main_arg1))))
          (proj (arr3 (m ((c : Thread nD τ).loc main_arg0))) (arr2 (m ((c : Thread nD τ).loc main_arg2))))
          (proj (arr3 (m ((c : Thread nD τ).loc main_arg0))) (arr2 (m ((c : Thread nD τ).loc main_arg3)))) b s h := by
  have h1 : (W4 m ρ c (Proc.devRef .tc main_v6) : S4x2048x64.Idx → EReal) = G1 (V3 m ρ c main_v3) (V3 m ρ c main_v4) (V3 m ρ c main_v5) :=
    (W4_arr m ρ c 3).trans (final1_3 (V3 m ρ) P c)
  refine (congrFun h1 _).trans ?_
  unfold G1
  rw [v3_eq m ρ P c, v4_eq m ρ P c, v5_eq m ρ P c]

end Cert.KernelIdeal.Hand

end
-- ==== Proof.Payload.lean ====
/-
  The kernels' stored values at an index, on the extended reals.

  The projection kernel stores three column blocks of one matrix product: at (y, d) the sum over e of
  x0 (y, e) * x1 (e, d + 64 c) for c = 0, 1, 2. The attention kernel stores, at row r of query block
  qi and column h, the quotient of the weighted sum of the value rows by the sum of the weights, the
  weights being the exponentials of the masked scaled scores less their row maximum.
-/
import proofs.«154036_j14757507629205_2_alg».proof.Proof.Gen.KernelIdeal.Skeleton
import proofs.«154036_j14757507629205_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.Attn.Pay

open Idealize.ShloMosaic Idealize.ShloMosaic.ValueIdx Cert.KernelIdeal
open scoped BigOperators

theorem lhsA_0 (i : S2048x192.Idx) (q : dot_S2048x1024_S1024x192_S2048x192_1_0_0_1_n_n.contr.Idx) :
    (dot_S2048x1024_S1024x192_S2048x192_1_0_0_1_n_n.lhsIdx i q 0).val = (i 0).val := by
  unfold DotDims.lhsIdx
  rw [dif_neg (show ¬(0 : Fin S2048x1024.rank) ∈ dot_S2048x1024_S1024x192_S2048x192_1_0_0_1_n_n.lhsBatch by decide), dif_pos (show (0 : Fin S2048x1024.rank) ∈ dot_S2048x1024_S1024x192_S2048x192_1_0_0_1_n_n.lhsNonContracting by decide)]
  rfl
theorem lhsA_1 (i : S2048x192.Idx) (q : dot_S2048x1024_S1024x192_S2048x192_1_0_0_1_n_n.contr.Idx) :
    (dot_S2048x1024_S1024x192_S2048x192_1_0_0_1_n_n.lhsIdx i q 1).val = (q ⟨0, by decide⟩).val :=
  dot_S2048x1024_S1024x192_S2048x192_1_0_0_1_n_n.lhsIdx_val_of_single rfl i q
theorem rhsA_0 (i : S2048x192.Idx) (q : dot_S2048x1024_S1024x192_S2048x192_1_0_0_1_n_n.contr.Idx) :
    (dot_S2048x1024_S1024x192_S2048x192_1_0_0_1_n_n.rhsIdx i q 0).val = (q ⟨0, by decide⟩).val :=
  dot_S2048x1024_S1024x192_S2048x192_1_0_0_1_n_n.rhsIdx_val_of_single rfl i q
theorem rhsA_1 (i : S2048x192.Idx) (q : dot_S2048x1024_S1024x192_S2048x192_1_0_0_1_n_n.contr.Idx) :
    (dot_S2048x1024_S1024x192_S2048x192_1_0_0_1_n_n.rhsIdx i q 1).val = (i 1).val := by
  unfold DotDims.rhsIdx
  rw [dif_neg (show ¬(1 : Fin S1024x192.rank) ∈ dot_S2048x1024_S1024x192_S2048x192_1_0_0_1_n_n.rhsBatch by decide), dif_pos (show (1 : Fin S1024x192.rank) ∈ dot_S2048x1024_S1024x192_S2048x192_1_0_0_1_n_n.rhsNonContracting by decide)]
  rfl

/-- A matrix product into a zero accumulator, at an index: the sum over the contracted coordinate. -/
theorem mmA_apply {φ₁ φ₂ : FTy} (lhs : FVec Ideal S2048x1024 φ₁) (rhs : FVec Ideal S1024x192 φ₂) (p : Fin 2048) (c : Fin 192) :
    FloatOps.matmul dot_S2048x1024_S1024x192_S2048x192_1_0_0_1_n_n none lhs rhs (constant (F := Ideal) S2048x192 .f32 0x00000000#32) (ix2 p c)
      = ∑ e : Fin 1024, lhs (ix2 p e) * rhs (ix2 e c) := by
  rw [Ideal.matmul_constant_zero_apply, ← Equiv.sum_comp (contrEquiv1 dot_S2048x1024_S1024x192_S2048x192_1_0_0_1_n_n 1024 rfl rfl).symm]
  refine Finset.sum_congr rfl fun k _ => ?_
  have hk := contrEquiv1_symm_val dot_S2048x1024_S1024x192_S2048x192_1_0_0_1_n_n 1024 rfl rfl k
  have el : dot_S2048x1024_S1024x192_S2048x192_1_0_0_1_n_n.lhsIdx (ix2 p c) ((contrEquiv1 dot_S2048x1024_S1024x192_S2048x192_1_0_0_1_n_n 1024 rfl rfl).symm k) = ix2 p k := funext fun a => Fin.ext (by
    match a with
    | ⟨0, _⟩ => exact lhsA_0 _ _
    | ⟨1, _⟩ => exact (lhsA_1 _ _).trans hk)
  have er : dot_S2048x1024_S1024x192_S2048x192_1_0_0_1_n_n.rhsIdx (ix2 p c) ((contrEquiv1 dot_S2048x1024_S1024x192_S2048x192_1_0_0_1_n_n 1024 rfl rfl).symm k) = ix2 k c := funext fun a => Fin.ext (by
    match a with
    | ⟨0, _⟩ => exact (rhsA_0 _ _).trans hk
    | ⟨1, _⟩ => exact rhsA_1 _ _)
  rw [el, er]

/-- The projection kernel's matrix product at an index. -/
theorem k0_pay1_apply (x0 : Vec Ideal S2048x1024 .f32) (x1 : Vec Ideal S1024x192 .f32) (y : Fin 2048) (c : Fin 192) :
    Cert.KernelIdeal.Gen.k0_pay1 (F := Ideal) x0 x1 (ix2 y c) = ∑ e : Fin 1024, x0 (ix2 y e) * x1 (ix2 e c) := by
  unfold Cert.KernelIdeal.Gen.k0_pay1
  refine (mmA_apply _ _ y c).trans ?_
  refine Finset.sum_congr rfl fun e _ => ?_
  rw [truncf_apply, truncf_apply, shapeCast_self, shapeCast_self]

theorem pay2_apply (x0 : Vec Ideal S2048x1024 .f32) (x1 : Vec Ideal S1024x192 .f32) (y : Fin 2048) (d : Fin 64) :
    Cert.KernelIdeal.Gen.k0_pay2 (F := Ideal) x0 x1 (ix2 y d) = ∑ e : Fin 1024, x0 (ix2 y e) * x1 (ix2 e ⟨d.val, by omega⟩) := by
  unfold Cert.KernelIdeal.Gen.k0_pay2
  have h := slice2_axis1_apply (n0 := 2048) (n1 := 192) (m := 64) 0 (Cert.KernelIdeal.Gen.k0_pay1 (F := Ideal) x0 x1)
    Cert.KernelIdeal.Gen.slices_S2048x192_o0_0_S2048x64 y d ⟨d.val, by omega⟩ (Nat.zero_add _).symm
  exact h.trans (k0_pay1_apply x0 x1 y _)

theorem pay3_apply (x0 : Vec Ideal S2048x1024 .f32) (x1 : Vec Ideal S1024x192 .f32) (y : Fin 2048) (d : Fin 64) :
    Cert.KernelIdeal.Gen.k0_pay3 (F := Ideal) x0 x1 (ix2 y d) = ∑ e : Fin 1024, x0 (ix2 y e) * x1 (ix2 e ⟨d.val + 64, by omega⟩) := by
  unfold Cert.KernelIdeal.Gen.k0_pay3
  have h := slice2_axis1_apply (n0 := 2048) (n1 := 192) (m := 64) 64 (Cert.KernelIdeal.Gen.k0_pay1 (F := Ideal) x0 x1)
    Cert.KernelIdeal.Gen.slices_S2048x192_o0_64_S2048x64 y d ⟨d.val + 64, by omega⟩ (Nat.add_comm _ _)
  exact h.trans (k0_pay1_apply x0 x1 y _)

theorem pay4_apply (x0 : Vec Ideal S2048x1024 .f32) (x1 : Vec Ideal S1024x192 .f32) (y : Fin 2048) (d : Fin 64) :
    Cert.KernelIdeal.Gen.k0_pay4 (F := Ideal) x0 x1 (ix2 y d) = ∑ e : Fin 1024, x0 (ix2 y e) * x1 (ix2 e ⟨d.val + 128, by omega⟩) := by
  unfold Cert.KernelIdeal.Gen.k0_pay4
  have h := slice2_axis1_apply (n0 := 2048) (n1 := 192) (m := 64) 128 (Cert.KernelIdeal.Gen.k0_pay1 (F := Ideal) x0 x1)
    Cert.KernelIdeal.Gen.slices_S2048x192_o0_128_S2048x64 y d ⟨d.val + 128, by omega⟩ (Nat.add_comm _ _)
  exact h.trans (k0_pay1_apply x0 x1 y _)

theorem lhsB_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhsB_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhsB_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhsB_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- A matrix product into a zero accumulator, at an index: the sum over the contracted coordinate. -/
theorem mmB_apply {φ₁ φ₂ : FTy} (lhs : FVec Ideal S1024x64 φ₁) (rhs : FVec Ideal S64x2048 φ₂) (p : Fin 1024) (c : Fin 2048) :
    FloatOps.matmul dot_S1024x64_S64x2048_S1024x2048_1_0_0_1_n_n none lhs rhs (constant (F := Ideal) S1024x2048 .f32 0x00000000#32) (ix2 p c)
      = ∑ e : Fin 64, lhs (ix2 p e) * rhs (ix2 e c) := by
  rw [Ideal.matmul_constant_zero_apply, ← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 p c) ((contrEquiv1 dot_S1024x64_S64x2048_S1024x2048_1_0_0_1_n_n 64 rfl rfl).symm k) = ix2 p k := funext fun a => Fin.ext (by
    match a with
    | ⟨0, _⟩ => exact lhsB_0 _ _
    | ⟨1, _⟩ => exact (lhsB_1 _ _).trans hk)
  have er : dot_S1024x64_S64x2048_S1024x2048_1_0_0_1_n_n.rhsIdx (ix2 p c) ((contrEquiv1 dot_S1024x64_S64x2048_S1024x2048_1_0_0_1_n_n 64 rfl rfl).symm k) = ix2 k c := funext fun a => Fin.ext (by
    match a with
    | ⟨0, _⟩ => exact (rhsB_0 _ _).trans hk
    | ⟨1, _⟩ => exact rhsB_1 _ _)
  rw [el, er]

theorem lhsC_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhsC_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhsC_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhsC_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- A matrix product into a zero accumulator, at an index: the sum over the contracted coordinate. -/
theorem mmC_apply {φ₁ φ₂ : FTy} (lhs : FVec Ideal S1024x2048 φ₁) (rhs : FVec Ideal S2048x64 φ₂) (p : Fin 1024) (c : Fin 64) :
    FloatOps.matmul dot_S1024x2048_S2048x64_S1024x64_1_0_0_1_n_n none lhs rhs (constant (F := Ideal) S1024x64 .f32 0x00000000#32) (ix2 p c)
      = ∑ e : Fin 2048, lhs (ix2 p e) * rhs (ix2 e c) := by
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 p c) ((contrEquiv1 dot_S1024x2048_S2048x64_S1024x64_1_0_0_1_n_n 2048 rfl rfl).symm k) = ix2 p k := funext fun a => Fin.ext (by
    match a with
    | ⟨0, _⟩ => exact lhsC_0 _ _
    | ⟨1, _⟩ => exact (lhsC_1 _ _).trans hk)
  have er : dot_S1024x2048_S2048x64_S1024x64_1_0_0_1_n_n.rhsIdx (ix2 p c) ((contrEquiv1 dot_S1024x2048_S2048x64_S1024x64_1_0_0_1_n_n 2048 rfl rfl).symm k) = ix2 k c := funext fun a => Fin.ext (by
    match a with
    | ⟨0, _⟩ => exact (rhsC_0 _ _).trans hk
    | ⟨1, _⟩ => exact rhsC_1 _ _)
  rw [el, er]

/-! ## The attention kernel's stored value, in stages -/

/-- The masked scaled scores of one query block: row r against every key row, times 1/32, with -∞
    at a key position after the query's. -/
def scoreK (i : grid1.Coords) (v0 : Vec Ideal S1x1024x64 .f32) (v2 : Vec Ideal S1x2048x64 .f32) :
    FVec Ideal S1024x2048 .f32 :=
  select
    (cmpi .sge
      (broadcastTo S1024x2048
        (addi (broadcast S1024x1 (Scalar.muli (BitVec.ofNat 32 (i 1).val) 1024#32))
          (iota .tc S1024x1 32 [0] Gen.iota_S1024x1_d0_w32))
        Gen.broadcasts_S1024x1_S1024x2048)
      (broadcastTo S1024x2048 (iota .tc S1x2048 32 [1] Gen.iota_S1x2048_d1_w32) Gen.broadcasts_S1x2048_S1024x2048))
    (mulf
      (matmul dot_S1024x64_S64x2048_S1024x2048_1_0_0_1_n_n none
        (shapeCast S1024x64 v0 Gen.shapeCasts_S1x1024x64_S1024x64 : FVec Ideal S1024x64 .f32)
        (transpose S64x2048 [1, 0] (shapeCast S2048x64 v2 Gen.shapeCasts_S1x2048x64_S2048x64 : FVec Ideal S2048x64 .f32)
          Gen.transposes_S2048x64_p1_0_S64x2048 : FVec Ideal S64x2048 .f32)
        (constant S1024x2048 .f32 0x00000000#32))
      (broadcast S1024x2048 (Scalar.ofBits .f32 0x3D000000#32)))
    (broadcast S1024x2048 (Named.named κ "neg_big" 0xFF333332#32))

/-- The row maxima. -/
def rowMaxK (s : FVec Ideal S1024x2048 .f32) : FVec Ideal S1024 .f32 :=
  multiReduction .maximumf [1] S1024 s 0xFF800000#32 Gen.reduces_S1024x2048_S1024 (.inl rfl) rfl

/-- The exponentials of the scores less their row maximum. -/
def expK (s : FVec Ideal S1024x2048 .f32) : FVec Ideal S1024x2048 .f32 :=
  exp (subf s (broadcastTo S1024x2048 (shapeCast S1024x1 (rowMaxK s) Gen.shapeCasts_S1024_S1024x1)
    Gen.broadcasts_S1024x1_S1024x2048))

/-- The row sums of the weights, spread over the value columns. -/
def denK (p : FVec Ideal S1024x2048 .f32) : FVec Ideal S1024x64 .f32 :=
  broadcastTo S1024x64
    (shapeCast S1024x1
      (multiReduction .add [1] S1024 p 0x00000000#32 Gen.reduces_S1024x2048_S1024 (.inl rfl) rfl)
      Gen.shapeCasts_S1024_S1024x1)
    Gen.broadcasts_S1024x1_S1024x64

/-- The weighted sums of the value rows. -/
def numK (p : FVec Ideal S1024x2048 .f32) (v4 : Vec Ideal S1x2048x64 .f32) : FVec Ideal S1024x64 .f32 :=
  matmul dot_S1024x2048_S2048x64_S1024x64_1_0_0_1_n_n none
    (truncf .bf16 p Gen.bitsLt_bf16_f32)
    (truncf .bf16 (shapeCast S2048x64 v4 Gen.shapeCasts_S1x2048x64_S2048x64 : FVec Ideal S2048x64 .f32) Gen.bitsLt_bf16_f32)
    (constant S1024x64 .f32 0x00000000#32)

/-- The quotient, as a block of one batch. -/
def tailK (s : FVec Ideal S1024x2048 .f32) (v4 : Vec Ideal S1x2048x64 .f32) : FVec Ideal S1x1024x64 .f32 :=
  shapeCast S1x1024x64 (divf (numK (expK s) v4) (denK (expK s))) Gen.shapeCasts_S1024x64_S1x1024x64

/-- The stored value is the quotient stage over the masked scores. -/
theorem k1_pay1_eq (i : grid1.Coords) (x0 : Vec Ideal S1x1024x64 .f32) (x1 x2 : Vec Ideal S1x2048x64 .f32) :
    Cert.KernelIdeal.Gen.k1_pay1 (F := Ideal) i x0 x1 x2 = tailK (scoreK i x0 x1) x2 := rfl

/-! ## Constants -/

/-- The scale's word denotes 1/32. -/
theorem ofBits_c32 : Ideal.ofBits .f32 0x3D000000#32 = Cert.Attn.c32 := by
  simp [Ideal.ofBits, Ideal.ieee, -EReal.coe_mul]; norm_num

/-- The negative infinity's word denotes -∞. -/
theorem ofBits_neg_inf : Ideal.ofBits .f32 0xFF800000#32 = (⊥ : EReal) := by
  simp [Ideal.ofBits, Ideal.ieee]

/-- The named mask constant is -∞. -/
theorem neg_big : Named.named (F := Ideal) Cert.KernelIdeal.κ "neg_big" (φ := .f32) 0xFF333332#32 = (⊥ : EReal) :=
  IdealRules.named_const.ideal_named_scalar _ _ _ _ rfl

/-! ## Column forms of the layout operations -/

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row reductions -/

/-- The source index over row r with column k inserted. -/
theorem lift_row (h : S1024x2048.Reduces [1] S1024) (r : Fin 1024) (k : Fin 2048) :
    h.lift (ix1 r) k = ix2 r k := funext fun c => Fin.ext (by
  match c with
  | ⟨0, _⟩ => rfl
  | ⟨1, _⟩ => rfl)

/-- A row sum at row r. -/
theorem rowsum_apply (src : FVec Ideal S1024x2048 .f32) (h : S1024x2048.Reduces [1] S1024) (hφ : FKind.Formats .f32)
    (hacc : (0x00000000#32 : BitVec 32) = 0x00000000#32) (r : Fin 1024) :
    multiReduction .add [1] S1024 src 0x00000000#32 h hφ hacc (ix1 r) = ∑ j : Fin 2048, src (ix2 r j) := by
  refine (Ideal.multiReduction_add_single src 0x00000000#32 h hφ hacc (ix1 r)).trans ?_
  show ∑ k : Fin 2048, src (h.lift (ix1 r) k) = _
  exact Finset.sum_congr rfl fun k _ => congrArg src (lift_row h r k)

/-- A row maximum at row r: the fold of max from -∞. -/
theorem rowmax_apply (src : FVec Ideal S1024x2048 .f32) (h : S1024x2048.Reduces [1] S1024) (hφ : FKind.Formats .f32)
    (hacc : (0xFF800000#32 : BitVec 32) = 0xFF800000#32) (r : Fin 1024) :
    multiReduction .maximumf [1] S1024 src 0xFF800000#32 h hφ hacc (ix1 r)
      = (Finset.univ : Finset (Fin 2048)).fold max ⊥ (fun j => src (ix2 r j)) := by
  refine (Ideal.multiReduction_maximumf_single src 0xFF800000#32 h hφ hacc (ix1 r)).trans ?_
  show (Finset.univ : Finset (Fin 2048)).fold max (Ideal.ofBits .f32 0xFF800000#32) (src ∘ h.lift (ix1 r)) = _
  rw [ofBits_neg_inf]
  have e : (src ∘ h.lift (ix1 r)) = fun j : Fin 2048 => src (ix2 r j) := funext fun k => congrArg src (lift_row h r k)
  rw [e]
  rfl

/-! ## The causal mask -/

/-- The comparison of the query position 1024 qi + r against the key position j. -/
theorem sge_mask (qi r j : Nat) (hq : qi < 2) (hr : r < 1024) (hj : j < 2048) :
    IntOp.cmpi .sge (IntOp.addi (IntOp.muli (BitVec.ofNat 32 qi) 1024#32) (BitVec.ofNat 32 r)) (BitVec.ofNat 32 j)
      = if j ≤ 1024 * qi + r then 1#1 else 0#1 := by
  have e : IntOp.addi (IntOp.muli (BitVec.ofNat 32 qi) 1024#32) (BitVec.ofNat 32 r) = BitVec.ofNat 32 (1024 * qi + r) := by
    unfold IntOp.addi IntOp.muli
    rw [show (1024#32 : BitVec 32) = BitVec.ofNat 32 1024 from rfl, ← BitVec.ofNat_mul, ← BitVec.ofNat_add, Nat.mul_comm]
  rw [e]
  unfold IntOp.cmpi
  have h1 : (BitVec.ofNat 32 j).toInt = (j : Int) := by
    rw [BitVec.toInt_eq_toNat_cond, BitVec.toNat_ofNat]; omega
  have h2 : (BitVec.ofNat 32 (1024 * qi + r)).toInt = ((1024 * qi + r : Nat) : Int) := by
    rw [BitVec.toInt_eq_toNat_cond, BitVec.toNat_ofNat]; omega
  show BitVec.ofBool ((BitVec.ofNat 32 j).sle (BitVec.ofNat 32 (1024 * qi + r))) = _
  rw [BitVec.sle, h1, h2]
  by_cases hle : j ≤ 1024 * qi + r
  · rw [if_pos hle, decide_eq_true (by exact_mod_cast hle)]; rfl
  · rw [if_neg hle, decide_eq_false (by exact_mod_cast hle)]; rfl

/-! ## The stages at an index -/

/-- The query positions of the block's rows. -/
def rowPosK (i : grid1.Coords) : IVec S1024x1 32 :=
  addi (broadcast S1024x1 (Scalar.muli (BitVec.ofNat 32 (i 1).val) 1024#32))
    (iota .tc S1024x1 32 [0] Gen.iota_S1024x1_d0_w32)

theorem rowPosK_apply (i : grid1.Coords) (r : Fin 1024) (u : Fin 1) :
    rowPosK i (ix2 r u)
      = IntOp.addi (IntOp.muli (BitVec.ofNat 32 (i 1).val) 1024#32) (BitVec.ofNat 32 r.val) := by
  unfold rowPosK
  show IntOp.addi (Scalar.muli (BitVec.ofNat 32 (i 1).val) 1024#32)
    (iota .tc S1024x1 32 [0] Gen.iota_S1024x1_d0_w32 (ix2 r u)) = _
  rw [iota_single_apply]
  rfl

/-- The causal mask of the block. -/
def maskK (i : grid1.Coords) : IVec S1024x2048 1 :=
  cmpi .sge (broadcastTo S1024x2048 (rowPosK i) Gen.broadcasts_S1024x1_S1024x2048)
    (broadcastTo S1024x2048 (iota .tc S1x2048 32 [1] Gen.iota_S1x2048_d1_w32) Gen.broadcasts_S1x2048_S1024x2048)

theorem maskK_apply (i : grid1.Coords) (qi : Fin 2) (hi : (i 1).val = qi.val) (r : Fin 1024) (j : Fin 2048) :
    maskK i (ix2 r j) = if j.val ≤ 1024 * qi.val + r.val then 1#1 else 0#1 := by
  unfold maskK
  show IntOp.cmpi .sge (broadcastTo S1024x2048 (rowPosK i) Gen.broadcasts_S1024x1_S1024x2048 (ix2 r j))
    (broadcastTo S1024x2048 (iota .tc S1x2048 32 [1] Gen.iota_S1x2048_d1_w32) Gen.broadcasts_S1x2048_S1024x2048 (ix2 r j)) = _
  rw [broadcastTo_a1_ab_apply, broadcastTo_1b_ab_apply, rowPosK_apply, iota_single_apply, hi]
  exact sge_mask qi.val r.val j.val qi.isLt r.isLt j.isLt

/-- The dot products of the block's query rows and the key rows. -/
def dotK (v0 : Vec Ideal S1x1024x64 .f32) (v2 : Vec Ideal S1x2048x64 .f32) : FVec Ideal S1024x2048 .f32 :=
  matmul dot_S1024x64_S64x2048_S1024x2048_1_0_0_1_n_n none
    (shapeCast S1024x64 v0 Gen.shapeCasts_S1x1024x64_S1024x64 : FVec Ideal S1024x64 .f32)
    (transpose S64x2048 [1, 0] (shapeCast S2048x64 v2 Gen.shapeCasts_S1x2048x64_S2048x64 : FVec Ideal S2048x64 .f32)
      Gen.transposes_S2048x64_p1_0_S64x2048 : FVec Ideal S64x2048 .f32)
    (constant S1024x2048 .f32 0x00000000#32)

theorem dotK_apply (x0 : Vec Ideal S1x1024x64 .f32) (x1 : Vec Ideal S1x2048x64 .f32) (r : Fin 1024) (j : Fin 2048) :
    dotK x0 x1 (ix2 r j) = ∑ d : Fin 64, x0 (ix3 (0 : Fin 1) r d) * x1 (ix3 (0 : Fin 1) j d) := by
  unfold dotK
  refine (mmB_apply _ _ r j).trans ?_
  refine Finset.sum_congr rfl fun d _ => ?_
  rw [shapeCast_1ab_ab_apply, transpose_ix2_apply, shapeCast_1ab_ab_apply]

theorem scoreK_eq (i : grid1.Coords) (x0 : Vec Ideal S1x1024x64 .f32) (x1 : Vec Ideal S1x2048x64 .f32) :
    scoreK i x0 x1 = select (maskK i) (mulf (dotK x0 x1) (broadcast S1024x2048 (Scalar.ofBits .f32 0x3D000000#32)))
      (broadcast S1024x2048 (Named.named κ "neg_big" 0xFF333332#32)) := rfl

/-- The masked scaled score at (r, j). -/
theorem scoreK_apply (i : grid1.Coords) (x0 : Vec Ideal S1x1024x64 .f32) (x1 : Vec Ideal S1x2048x64 .f32)
    (qi : Fin 2) (hi : (i 1).val = qi.val) (r : Fin 1024) (j : Fin 2048) :
    scoreK i x0 x1 (ix2 r j)
      = if j.val ≤ 1024 * qi.val + r.val
          then (∑ d : Fin 64, x0 (ix3 (0 : Fin 1) r d) * x1 (ix3 (0 : Fin 1) j d)) * Cert.Attn.c32 else ⊥ := by
  rw [scoreK_eq, select_apply, mulf_apply, broadcast_apply, broadcast_apply, maskK_apply i qi hi, dotK_apply, neg_big]
  show Scalar.select _ (_ * Ideal.ofBits .f32 0x3D000000#32) ⊥ = _
  rw [ofBits_c32]
  split_ifs
  · exact select_one _ _
  · exact select_zero _ _

theorem rowMaxK_apply (s : FVec Ideal S1024x2048 .f32) (r : Fin 1024) :
    rowMaxK s (ix1 r) = (Finset.univ : Finset (Fin 2048)).fold max ⊥ (fun j => s (ix2 r j)) := by
  unfold rowMaxK
  exact rowmax_apply s _ _ _ r

/-- A weight at (r, j): the exponential of the score less the row's maximum. -/
theorem expK_apply (s : FVec Ideal S1024x2048 .f32) (r : Fin 1024) (j : Fin 2048) :
    expK s (ix2 r j)
      = Ideal.exp (s (ix2 r j) - (Finset.univ : Finset (Fin 2048)).fold max ⊥ (fun j => s (ix2 r j))) := by
  unfold expK
  show Ideal.exp (s (ix2 r j) - broadcastTo S1024x2048 (shapeCast S1024x1 (rowMaxK s) Gen.shapeCasts_S1024_S1024x1)
    Gen.broadcasts_S1024x1_S1024x2048 (ix2 r j)) = _
  rw [broadcastTo_a1_ab_apply, shapeCast_a_a1_apply, rowMaxK_apply]

/-- The weights' sum at row r, whatever the value column. -/
theorem denK_apply (p : FVec Ideal S1024x2048 .f32) (r : Fin 1024) (h : Fin 64) :
    denK p (ix2 r h) = ∑ j : Fin 2048, p (ix2 r j) := by
  unfold denK
  rw [broadcastTo_a1_ab_apply, shapeCast_a_a1_apply]
  exact rowsum_apply p _ _ _ r

/-- The weighted sum of the value rows at (r, h). -/
theorem numK_apply (p : FVec Ideal S1024x2048 .f32) (v4 : Vec Ideal S1x2048x64 .f32) (r : Fin 1024) (h : Fin 64) :
    numK p v4 (ix2 r h) = ∑ j : Fin 2048, p (ix2 r j) * v4 (ix3 (0 : Fin 1) j h) := by
  unfold numK
  refine (mmC_apply _ _ r h).trans ?_
  refine Finset.sum_congr rfl fun j _ => ?_
  rw [truncf_apply, truncf_apply, shapeCast_1ab_ab_apply]

/-- The quotient at (r, h). -/
theorem tailK_apply (s : FVec Ideal S1024x2048 .f32) (v4 : Vec Ideal S1x2048x64 .f32) (u : Fin 1) (r : Fin 1024)
    (h : Fin 64) :
    tailK s v4 (ix3 u r h)
      = Ideal.div (∑ j : Fin 2048, expK s (ix2 r j) * v4 (ix3 (0 : Fin 1) j h)) (∑ j : Fin 2048, expK s (ix2 r j)) := by
  unfold tailK
  rw [shapeCast_ab_1ab_apply, divf_apply, numK_apply, denK_apply]

/-! ## The attention kernel's stored value -/

theorem pay1_apply (i : grid1.Coords) (x0 : Vec Ideal S1x1024x64 .f32) (x1 x2 : Vec Ideal S1x2048x64 .f32)
    (Q K Vv : Fin 4 → Fin 2048 → Fin 64 → EReal) (b : Fin 4) (qi : Fin 2) (hi : (i 1).val = qi.val)
    (h0 : ∀ (r : Fin 1024) (d : Fin 64), x0 (ix3 0 r d) = Q b ⟨1024 * qi.val + r.val, by omega⟩ d)
    (h1 : ∀ (j : Fin 2048) (d : Fin 64), x1 (ix3 0 j d) = K b j d)
    (h2 : ∀ (j : Fin 2048) (d : Fin 64), x2 (ix3 0 j d) = Vv b j d)
    (r : Fin 1024) (h : Fin 64) :
    Cert.KernelIdeal.Gen.k1_pay1 (F := Ideal) i x0 x1 x2 (ix3 0 r h) = Cert.Attn.attnK Q K Vv b ⟨1024 * qi.val + r.val, by omega⟩ h := by
  have hs : ∀ j : Fin 2048, scoreK i x0 x1 (ix2 r j) = Cert.Attn.msk Q K b ⟨1024 * qi.val + r.val, by omega⟩ j := by
    intro j
    rw [scoreK_apply i x0 x1 qi hi r j]
    unfold Cert.Attn.msk Cert.Attn.dotq
    simp only [h0, h1]
  have hp : ∀ j : Fin 2048, expK (scoreK i x0 x1) (ix2 r j) = Cert.Attn.pexp Q K b ⟨1024 * qi.val + r.val, by omega⟩ j := by
    intro j
    rw [expK_apply]
    unfold Cert.Attn.pexp Cert.Attn.rmax
    simp only [hs]
  rw [k1_pay1_eq, tailK_apply]
  unfold Cert.Attn.attnK Cert.Attn.den
  simp only [hp, h2]

end Cert.Attn.Pay

end
-- ==== Proof.RefSide.lean ====
import proofs.«154036_j14757507629205_2_alg».proof.Proof.Gen.ReferenceIdeal.Read
import proofs.«154036_j14757507629205_2_alg».proof.Proof.Spec
import Idealize.ShloMosaic.PureOps.Reduce
import Idealize.ShloMosaic.PureOps.Ideal.Laws
import Idealize.ShloMosaic.Lib.ValueIdx

/-!
  The reference's result, read index by index from its last operation back to the arguments, is the second
  arrangement of causal attention: at `(b, s, h)` the sum over the key positions `j` of the normalised weight of
  `j` for the query `s` times the value row `j` at `h`. Each stage is read at an index built from its coordinates:
  the three projections as sums over the embedding axis; the score as the dot product of a query row and a key
  row; the quotient by 32 as the product with 1/32; the mask as the comparison of two position counters, which
  on words of numbers below 2048 is the comparison of the numbers; the masked score with `-∞` after the query's
  position; the row maximum as the fold of `max` from `-∞` over the key axis (and the further maximum with `-∞`
  changes nothing); the weight as the exponential of the masked score less the row maximum; the weights' sum
  from zero; the quotient of the weight by that sum.
-/

noncomputable section

namespace Cert.Attn.Ref

open Cert.ReferenceIdeal Cert.ReferenceIdeal.Read Idealize.ShloMosaic Idealize.ShloMosaic.ValueIdx
open scoped BigOperators

/-! ## The constants -/

/-- The word of `32.0` denotes the real 32. -/
theorem ofBits_32 : Ideal.ofBits .f32 0x42000000#32 = ((32 : ℝ) : EReal) := by
  simp [Ideal.ofBits, Ideal.ieee, -EReal.coe_mul]; norm_num

/-- The word of `-inf` denotes `⊥`. -/
theorem ofBits_ninf : Ideal.ofBits .f32 0xFF800000#32 = (⊥ : EReal) := by
  simp [Ideal.ofBits, Ideal.ieee]

/-! ## The triangular mask on words -/

/-- On 32-bit words of numbers below 2048 the signed order is the order of the numbers. -/
theorem sle_ofNat (a b : Nat) (ha : a < 2048) (hb : b < 2048) :
    (BitVec.ofNat 32 b).sle (BitVec.ofNat 32 a + 0#32) = decide (b ≤ a) := by
  have na : (BitVec.ofNat 32 a).toNat = a := by
    rw [BitVec.toNat_ofNat]; exact Nat.mod_eq_of_lt (by omega)
  have nb : (BitVec.ofNat 32 b).toNat = b := by
    rw [BitVec.toNat_ofNat]; exact Nat.mod_eq_of_lt (by omega)
  have e1 : (BitVec.ofNat 32 a).toInt = (a : Int) := by
    rw [BitVec.toInt_eq_toNat_of_lt (by rw [na]; omega), na]
  have e2 : (BitVec.ofNat 32 b).toInt = (b : Int) := by
    rw [BitVec.toInt_eq_toNat_of_lt (by rw [nb]; omega), nb]
  rw [BitVec.add_zero, BitVec.sle_eq_decide, e1, e2]
  exact decide_eq_decide.2 Int.ofNat_le

/-! ## The three projections -/

/-- The projection's left index at `(b, s, d)` and contracted coordinate `e` is `(b, s, e)`. -/
theorem lidx_v0 (b : Fin 4) (s : Fin 2048) (d : Fin 64) (e : Fin 1024) :
    lidx_main_v0 (ix3 b s d) e = ix3 b s e :=
  funext fun a => Fin.ext (by match a with | ⟨0, _⟩ => rfl | ⟨1, _⟩ => rfl | ⟨2, _⟩ => rfl)

/-- The projection's right index at `(b, s, d)` and contracted coordinate `e` is `(e, d)`. -/
theorem ridx_v0 (b : Fin 4) (s : Fin 2048) (d : Fin 64) (e : Fin 1024) :
    ridx_main_v0 (ix3 b s d) e = ix2 e d :=
  funext fun a => Fin.ext (by match a with | ⟨0, _⟩ => rfl | ⟨1, _⟩ => rfl)

/-- The first projection at `(b, s, d)`. -/
theorem v0_eq (x0 : (⟨S4x2048x1024, .f32⟩ : BufTy).Contents (Elt Ideal)) (x1 : (⟨S1024x64, .f32⟩ : BufTy).Contents (Elt Ideal))
    (b : Fin 4) (s : Fin 2048) (d : Fin 64) :
    val_main_v0 (F := Ideal) x0 x1 (ix3 b s d) = proj (arr3 x0) (arr2 x1) b s d := by
  rw [val_main_v0_apply]
  refine Finset.sum_congr rfl fun e _ => ?_
  rw [lidx_v0, ridx_v0]
  rfl

/-- The second projection at `(b, s, d)`. -/
theorem v1_eq (x0 : (⟨S4x2048x1024, .f32⟩ : BufTy).Contents (Elt Ideal)) (x2 : (⟨S1024x64, .f32⟩ : BufTy).Contents (Elt Ideal))
    (b : Fin 4) (s : Fin 2048) (d : Fin 64) :
    val_main_v1 (F := Ideal) x0 x2 (ix3 b s d) = proj (arr3 x0) (arr2 x2) b s d := by
  rw [val_main_v1_apply]
  refine Finset.sum_congr rfl fun e _ => ?_
  rw [show lidx_main_v1 (ix3 b s d) e = ix3 b s e from lidx_v0 b s d e,
    show ridx_main_v1 (ix3 b s d) e = ix2 e d from ridx_v0 b s d e]
  rfl

/-- The third projection at `(b, s, d)`. -/
theorem v2_eq (x0 : (⟨S4x2048x1024, .f32⟩ : BufTy).Contents (Elt Ideal)) (x3 : (⟨S1024x64, .f32⟩ : BufTy).Contents (Elt Ideal))
    (b : Fin 4) (s : Fin 2048) (d : Fin 64) :
    val_main_v2 (F := Ideal) x0 x3 (ix3 b s d) = proj (arr3 x0) (arr2 x3) b s d := by
  rw [val_main_v2_apply]
  refine Finset.sum_congr rfl fun e _ => ?_
  rw [show lidx_main_v2 (ix3 b s d) e = ix3 b s e from lidx_v0 b s d e,
    show ridx_main_v2 (ix3 b s d) e = ix2 e d from ridx_v0 b s d e]
  rfl

/-! ## The scores -/

/-- The query, key and value rows of the arguments. -/
abbrev Q (x0 : (⟨S4x2048x1024, .f32⟩ : BufTy).Contents (Elt Ideal)) (x1 : (⟨S1024x64, .f32⟩ : BufTy).Contents (Elt Ideal)) :
    Fin 4 → Fin 2048 → Fin 64 → EReal := proj (arr3 x0) (arr2 x1)

theorem lidx_v3 (b : Fin 4) (s j : Fin 2048) (d : Fin 64) :
    lidx_main_v3 (ix3 b s j) d = ix3 b s d :=
  funext fun a => Fin.ext (by match a with | ⟨0, _⟩ => rfl | ⟨1, _⟩ => rfl | ⟨2, _⟩ => rfl)

theorem ridx_v3 (b : Fin 4) (s j : Fin 2048) (d : Fin 64) :
    ridx_main_v3 (ix3 b s j) d = ix3 b j d :=
  funext fun a => Fin.ext (by match a with | ⟨0, _⟩ => rfl | ⟨1, _⟩ => rfl | ⟨2, _⟩ => rfl)

/-- The unscaled score of query row `s` and key row `j`. -/
theorem v3_eq (x0 : (⟨S4x2048x1024, .f32⟩ : BufTy).Contents (Elt Ideal)) (x1 x2 : (⟨S1024x64, .f32⟩ : BufTy).Contents (Elt Ideal))
    (b : Fin 4) (s j : Fin 2048) :
    val_main_v3 (F := Ideal) x0 x1 x2 (ix3 b s j) = dotq (Q x0 x1) (Q x0 x2) b s j := by
  rw [val_main_v3_apply]
  refine Finset.sum_congr rfl fun d _ => ?_
  rw [lidx_v3, ridx_v3, v0_eq, v1_eq]

/-- The quotient by 32 is the product with 1/32. -/
theorem v5_eq (x0 : (⟨S4x2048x1024, .f32⟩ : BufTy).Contents (Elt Ideal)) (x1 x2 : (⟨S1024x64, .f32⟩ : BufTy).Contents (Elt Ideal))
    (b : Fin 4) (s j : Fin 2048) :
    val_main_v5 (F := Ideal) x0 x1 x2 (ix3 b s j) = dotq (Q x0 x1) (Q x0 x2) b s j * c32 := by
  rw [val_main_v5_apply, v3_eq, val_main_v4_apply, val_main_cst_apply, Ideal.hostDivf_def, Ideal.ofBits_def, ofBits_32]
  exact Ideal.div_coe (by norm_num) _

/-! ## The mask -/

/-- The lower-triangular mask at row `s` and column `j`: the word 1 exactly when `j ≤ s`. -/
theorem v7_eq (s j : Fin 2048) :
    val_main_v7 (F := Ideal) (ix2 s j) = if j.val ≤ s.val then 1#1 else 0#1 := by
  rw [val_main_v7_apply, val_main_call0_v4_apply, val_main_call0_v2_apply, val_main_call0_v0_apply,
    val_main_call0_v3_apply, val_main_call0_v1_apply, val_main_call0_c_apply, val_main_v6_apply, val_main_c_apply,
    val_main_call0_v5_apply, val_main_call0_c_0_apply]
  show Scalar.select (BitVec.ofBool ((BitVec.ofNat 32 j.val).sle (BitVec.ofNat 32 s.val + 0#32))) 1#1 0#1 = _
  rw [sle_ofNat s.val j.val s.isLt j.isLt]
  by_cases h : j.val ≤ s.val
  · rw [if_pos h, decide_eq_true h]; exact select_one _ _
  · rw [if_neg h, decide_eq_false h]; exact select_zero _ _

theorem idx_call1_v1 (b : Fin 4) (s j : Fin 2048) : idx_main_call1_v1 (ix3 b s j) = ix2 s j :=
  funext fun a => Fin.ext (by match a with | ⟨0, _⟩ => rfl | ⟨1, _⟩ => rfl)

/-- The masked, scaled score. -/
theorem v8_eq (x0 : (⟨S4x2048x1024, .f32⟩ : BufTy).Contents (Elt Ideal)) (x1 x2 : (⟨S1024x64, .f32⟩ : BufTy).Contents (Elt Ideal))
    (b : Fin 4) (s j : Fin 2048) :
    val_main_v8 (F := Ideal) x0 x1 x2 (ix3 b s j) = msk (Q x0 x1) (Q x0 x2) b s j := by
  rw [val_main_v8_apply, val_main_call1_v1_apply, idx_call1_v1, v7_eq, v5_eq, val_main_call1_v2_apply,
    val_main_call1_v0_apply, val_main_cst_0_apply, Ideal.ofBits_def, ofBits_ninf]
  unfold msk
  by_cases h : j.val ≤ s.val
  · rw [if_pos h, if_pos h]; exact select_one _ _
  · rw [if_neg h, if_neg h]; exact select_zero _ _

/-! ## The row maximum -/

/-- Dropping the last axis of a 4 × 2048 × 2048 array leaves a 4 × 2048 array. -/
theorem red2 : S4x2048x2048.Reduces [2] S4x2048 := by decide

/-- Row `(b, s)` with the coordinate `k` inserted on the reduced axis is `(b, s, k)`. -/
theorem lift_red2 (b : Fin 4) (s : Fin 2048) (k : Fin 2048) :
    red2.lift (ix2 b s) k = ix3 b s k :=
  funext fun a => Fin.ext (by match a with | ⟨0, _⟩ => rfl | ⟨1, _⟩ => rfl | ⟨2, _⟩ => rfl)

/-- The max-reduce over the key axis from `-inf` is the row maximum of the masked scores. -/
theorem v9_eq (x0 : (⟨S4x2048x1024, .f32⟩ : BufTy).Contents (Elt Ideal)) (x1 x2 : (⟨S1024x64, .f32⟩ : BufTy).Contents (Elt Ideal))
    (b : Fin 4) (s : Fin 2048) :
    val_main_v9 (F := Ideal) x0 x1 x2 (ix2 b s) = rmax (Q x0 x1) (Q x0 x2) b s := by
  unfold val_main_v9
  refine (Host.reduce_eq_fold_single (FloatOps.maximumf (F := Ideal) (φ := .f32)) (val_main_v8 (F := Ideal) x0 x1 x2) (val_main_cst_1 (F := Ideal))
    Facts₀.reducesTo_S4x2048x2048_S4x2048_d2 red2 Facts₀.h_S_ (ix2 b s)).trans ?_
  rw [val_main_cst_1_apply, Ideal.ofBits_def, ofBits_ninf]
  have hf : (val_main_v8 (F := Ideal) x0 x1 x2 ∘ red2.lift (ix2 b s)) = fun j : Fin 2048 => msk (Q x0 x1) (Q x0 x2) b s j :=
    funext fun k : Fin 2048 =>
      (congrArg (val_main_v8 (F := Ideal) x0 x1 x2) (lift_red2 b s k)).trans (v8_eq x0 x1 x2 b s k)
  rw [hf]
  rfl

/-- The maximum with the `-inf` broadcast changes nothing. -/
theorem v11_eq (x0 : (⟨S4x2048x1024, .f32⟩ : BufTy).Contents (Elt Ideal)) (x1 x2 : (⟨S1024x64, .f32⟩ : BufTy).Contents (Elt Ideal))
    (b : Fin 4) (s : Fin 2048) :
    val_main_v11 (F := Ideal) x0 x1 x2 (ix2 b s) = rmax (Q x0 x1) (Q x0 x2) b s := by
  rw [val_main_v11_apply, v9_eq, val_main_v10_apply, val_main_cst_2_apply, Ideal.ofBits_def, ofBits_ninf, Ideal.maximumf_def]
  exact max_eq_right bot_le

theorem idx_v12_v13 (b : Fin 4) (s j : Fin 2048) : idx_main_v12 (idx_main_v13 (ix3 b s j)) = ix2 b s :=
  funext fun a => Fin.ext (by match a with | ⟨0, _⟩ => rfl | ⟨1, _⟩ => rfl)

/-- The row maximum broadcast back along the key axis. -/
theorem v13_eq (x0 : (⟨S4x2048x1024, .f32⟩ : BufTy).Contents (Elt Ideal)) (x1 x2 : (⟨S1024x64, .f32⟩ : BufTy).Contents (Elt Ideal))
    (b : Fin 4) (s j : Fin 2048) :
    val_main_v13 (F := Ideal) x0 x1 x2 (ix3 b s j) = rmax (Q x0 x1) (Q x0 x2) b s := by
  rw [val_main_v13_apply, val_main_v12_apply, idx_v12_v13, v11_eq]

/-! ## The weights and their sum -/

/-- The unnormalised weight. -/
theorem v15_eq (x0 : (⟨S4x2048x1024, .f32⟩ : BufTy).Contents (Elt Ideal)) (x1 x2 : (⟨S1024x64, .f32⟩ : BufTy).Contents (Elt Ideal))
    (b : Fin 4) (s j : Fin 2048) :
    val_main_v15 (F := Ideal) x0 x1 x2 (ix3 b s j) = pexp (Q x0 x1) (Q x0 x2) b s j := by
  rw [val_main_v15_apply, val_main_v14_apply, v8_eq, v13_eq, Ideal.hostUnary_exp_def, Ideal.subf_def]
  rfl

theorem idx_v16 (b : Fin 4) (s k : Fin 2048) : idx_main_v16 (ix2 b s) k = ix3 b s k :=
  funext fun a => Fin.ext (by match a with | ⟨0, _⟩ => rfl | ⟨1, _⟩ => rfl | ⟨2, _⟩ => rfl)

/-- The sum of the weights of row `(b, s)`. -/
theorem v16_eq (x0 : (⟨S4x2048x1024, .f32⟩ : BufTy).Contents (Elt Ideal)) (x1 x2 : (⟨S1024x64, .f32⟩ : BufTy).Contents (Elt Ideal))
    (b : Fin 4) (s : Fin 2048) :
    val_main_v16 (F := Ideal) x0 x1 x2 (ix2 b s) = den (Q x0 x1) (Q x0 x2) b s := by
  rw [val_main_v16_apply, val_main_cst_3_apply, Ideal.ofBits_def, Ideal.ofBits_zero_f32, zero_add]
  refine Finset.sum_congr rfl fun k _ => ?_
  rw [idx_v16, v15_eq]

theorem idx_v17_v18 (b : Fin 4) (s j : Fin 2048) : idx_main_v17 (idx_main_v18 (ix3 b s j)) = ix2 b s :=
  funext fun a => Fin.ext (by match a with | ⟨0, _⟩ => rfl | ⟨1, _⟩ => rfl)

/-- The normalised weight. -/
theorem v19_eq (x0 : (⟨S4x2048x1024, .f32⟩ : BufTy).Contents (Elt Ideal)) (x1 x2 : (⟨S1024x64, .f32⟩ : BufTy).Contents (Elt Ideal))
    (b : Fin 4) (s j : Fin 2048) :
    val_main_v19 (F := Ideal) x0 x1 x2 (ix3 b s j)
      = Ideal.div (pexp (Q x0 x1) (Q x0 x2) b s j) (den (Q x0 x1) (Q x0 x2) b s) := by
  rw [val_main_v19_apply, v15_eq, val_main_v18_apply, val_main_v17_apply, idx_v17_v18, v16_eq, Ideal.hostDivf_def]

/-! ## The result -/

theorem lidx_v20 (b : Fin 4) (s : Fin 2048) (h : Fin 64) (k : Fin 2048) :
    lidx_main_v20 (ix3 b s h) k = ix3 b s k :=
  funext fun a => Fin.ext (by match a with | ⟨0, _⟩ => rfl | ⟨1, _⟩ => rfl | ⟨2, _⟩ => rfl)

theorem ridx_v20 (b : Fin 4) (s : Fin 2048) (h : Fin 64) (k : Fin 2048) :
    ridx_main_v20 (ix3 b s h) k = ix3 b k h :=
  funext fun a => Fin.ext (by match a with | ⟨0, _⟩ => rfl | ⟨1, _⟩ => rfl | ⟨2, _⟩ => rfl)

/-- The reference's result at `(b, s, h)` is the value rows weighted by the normalised weights. -/
theorem ref_eq (x0 : (⟨S4x2048x1024, .f32⟩ : BufTy).Contents (Elt Ideal)) (x1 x2 x3 : (⟨S1024x64, .f32⟩ : BufTy).Contents (Elt Ideal))
    (b : Fin 4) (s : Fin 2048) (h : Fin 64) :
    Cert.ReferenceIdeal.Read.val_main_v20 (F := Ideal) x0 x1 x2 x3 (ix3 b s h)
      = Cert.Attn.attnR (Cert.Attn.proj (Cert.Attn.arr3 x0) (Cert.Attn.arr2 x1)) (Cert.Attn.proj (Cert.Attn.arr3 x0) (Cert.Attn.arr2 x2)) (Cert.Attn.proj (Cert.Attn.arr3 x0) (Cert.Attn.arr2 x3)) b s h := by
  rw [val_main_v20_apply]
  refine Finset.sum_congr rfl fun k _ => ?_
  rw [lidx_v20, ridx_v20, v19_eq, v2_eq]

end Cert.Attn.Ref

end
-- ==== Proof.Algebra.lean ====
/-
  The two arrangements of the last step of causal attention agree on real arguments.

  With real q, k, v every dot product is real, so each masked score is real or -∞, and the diagonal
  score is real. Hence the row maximum (a fold of max from -∞) is a real number M, each weight
  exp (score - M) is a nonnegative real, the diagonal weight is positive, and the weights' sum is a
  positive real L. Division by a nonzero real L is multiplication by the real 1/L, so both
  arrangements are the coercion of the real number (∑ j, p j * v j) * (1/L).
-/
import proofs.«154036_j14757507629205_2_alg».proof.Proof.Spec

noncomputable section

namespace Cert.Attn

open Idealize.ShloMosaic
open scoped BigOperators

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of the products. -/
theorem sum_mul_coe {ι : Type*} (s : Finset ι) (f g : ι → ℝ) :
    ∑ i ∈ s, (f i : EReal) * (g i : EReal) = ((∑ i ∈ s, f i * g i : ℝ) : EReal) := by
  rw [coe_sum]
  exact Finset.sum_congr rfl (fun i _ => (EReal.coe_mul _ _).symm)

/-- A projection of real arrays is real. -/
theorem proj_real {x : Fin 4 → Fin 2048 → Fin 1024 → EReal} {w : Fin 1024 → Fin 64 → EReal}
    (hx : ∀ b s e, ∃ r : ℝ, x b s e = (r : EReal)) (hw : ∀ e d, ∃ r : ℝ, w e d = (r : EReal))
    (b : Fin 4) (s : Fin 2048) (d : Fin 64) : ∃ r : ℝ, proj x w b s d = (r : EReal) := by
  choose xr hxr using hx
  choose wr hwr using hw
  refine ⟨∑ e : Fin 1024, xr b s e * wr e d, ?_⟩
  unfold proj
  simp only [hxr, hwr]
  exact sum_mul_coe _ _ _

/-- The fold of max from -∞ over finitely many values below +∞, one of them above -∞, is real. -/
theorem fold_max_real {ι : Type*} (s : Finset ι) (f : ι → EReal) (hlt : ∀ i ∈ s, f i ≠ ⊤)
    {i₀ : ι} (hi₀ : i₀ ∈ s) (hbot : f i₀ ≠ ⊥) : ∃ M : ℝ, s.fold max ⊥ f = (M : EReal) := by
  have hsup : s.fold max ⊥ f = s.sup f := rfl
  rw [hsup]
  have h1 : s.sup f < ⊤ :=
    (Finset.sup_lt_iff bot_lt_top).2 (fun i hi => lt_top_iff_ne_top.2 (hlt i hi))
  have h2 : ⊥ < s.sup f := lt_of_lt_of_le (bot_lt_iff_ne_bot.2 hbot) (Finset.le_sup hi₀)
  exact ⟨(s.sup f).toReal, (EReal.coe_toReal h1.ne h2.ne').symm⟩

/-- The exponential of a value below +∞ less a real is a nonnegative real, positive when the value
    is above -∞. -/
theorem exp_sub_real (m : EReal) (M : ℝ) (hm : m ≠ ⊤) :
    ∃ p : ℝ, 0 ≤ p ∧ (m ≠ ⊥ → 0 < p) ∧ Ideal.exp (m - (M : EReal)) = (p : EReal) := by
  induction m using EReal.rec with
  | bot =>
    exact ⟨0, le_rfl, fun h => absurd rfl h, by rw [EReal.bot_sub, Ideal.exp_bot, EReal.coe_zero]⟩
  | coe r =>
    exact ⟨Real.exp (r - M), (Real.exp_pos _).le, fun _ => Real.exp_pos _,
      by rw [← EReal.coe_sub, Ideal.exp_coe]⟩
  | top => exact absurd rfl hm

/-- For real weights and values and a nonzero real total, the quotient of the weighted sum is the
    sum weighted by the quotients. -/
theorem div_sum_eq {ι : Type*} (s : Finset ι) (p v : ι → ℝ) {L : ℝ} (hL : L ≠ 0) :
    Ideal.div (∑ j ∈ s, (p j : EReal) * (v j : EReal)) (L : EReal)
      = ∑ j ∈ s, Ideal.div (p j : EReal) (L : EReal) * (v j : EReal) := by
  have hl : Ideal.div (∑ j ∈ s, (p j : EReal) * (v j : EReal)) (L : EReal)
      = (((∑ j ∈ s, p j * v j) * (1 / L) : ℝ) : EReal) := by
    rw [Ideal.div_coe hL, sum_mul_coe, ← EReal.coe_mul]
  have hr : ∀ j ∈ s, Ideal.div (p j : EReal) (L : EReal) * (v j : EReal)
      = ((p j * (1 / L) * v j : ℝ) : EReal) := by
    intro j _
    rw [Ideal.div_coe hL, EReal.coe_mul, EReal.coe_mul]
  rw [hl, Finset.sum_congr rfl hr, ← coe_sum, Finset.sum_mul]
  congr 1
  exact Finset.sum_congr rfl (fun j _ => by ring)

variable {q k v : Fin 4 → Fin 2048 → Fin 64 → EReal}

/-- A dot product of real rows is real. -/
theorem dotq_real (hq : ∀ b s d, ∃ r : ℝ, q b s d = (r : EReal))
    (hk : ∀ b s d, ∃ r : ℝ, k b s d = (r : EReal)) (b : Fin 4) (s j : Fin 2048) :
    ∃ r : ℝ, dotq q k b s j = (r : EReal) := by
  choose qr hqr using hq
  choose kr hkr using hk
  refine ⟨∑ d : Fin 64, qr b s d * kr b j d, ?_⟩
  unfold dotq
  simp only [hqr, hkr]
  exact sum_mul_coe _ _ _

/-- A masked score of real rows is below +∞. -/
theorem msk_ne_top (hq : ∀ b s d, ∃ r : ℝ, q b s d = (r : EReal))
    (hk : ∀ b s d, ∃ r : ℝ, k b s d = (r : EReal)) (b : Fin 4) (s j : Fin 2048) :
    msk q k b s j ≠ ⊤ := by
  obtain ⟨r, hr⟩ := dotq_real hq hk b s j
  unfold msk
  split_ifs
  · rw [hr, ← EReal.coe_mul]; exact EReal.coe_ne_top _
  · exact bot_ne_top

/-- The diagonal masked score of real rows is above -∞. -/
theorem msk_diag_ne_bot (hq : ∀ b s d, ∃ r : ℝ, q b s d = (r : EReal))
    (hk : ∀ b s d, ∃ r : ℝ, k b s d = (r : EReal)) (b : Fin 4) (s : Fin 2048) :
    msk q k b s s ≠ ⊥ := by
  obtain ⟨r, hr⟩ := dotq_real hq hk b s s
  unfold msk
  rw [if_pos le_rfl, hr, ← EReal.coe_mul]
  exact EReal.coe_ne_bot _

/-- On real arguments the quotient of the weighted sum is the sum weighted by the quotients. -/
theorem attn_eq (hq : ∀ b s d, ∃ r : ℝ, q b s d = (r : EReal))
    (hk : ∀ b s d, ∃ r : ℝ, k b s d = (r : EReal))
    (hv : ∀ b s d, ∃ r : ℝ, v b s d = (r : EReal)) (b : Fin 4) (s : Fin 2048) (h : Fin 64) :
    attnK q k v b s h = attnR q k v b s h := by
  have hlt : ∀ j, msk q k b s j ≠ ⊤ := fun j => msk_ne_top hq hk b s j
  have hdiag : msk q k b s s ≠ ⊥ := msk_diag_ne_bot hq hk b s
  obtain ⟨M, hM⟩ : ∃ M : ℝ, rmax q k b s = (M : EReal) :=
    fold_max_real Finset.univ _ (fun j _ => hlt j) (Finset.mem_univ s) hdiag
  choose pr hp0 hppos hpe using fun j => exp_sub_real (msk q k b s j) M (hlt j)
  have hpexp : ∀ j, pexp q k b s j = (pr j : EReal) := fun j => by
    unfold pexp; rw [hM]; exact hpe j
  choose vr hvr using hv
  have hL : (∑ j, pr j) ≠ 0 :=
    (Finset.sum_pos' (fun j _ => hp0 j) ⟨s, Finset.mem_univ s, hppos s hdiag⟩).ne'
  have hden : den q k b s = ((∑ j, pr j : ℝ) : EReal) := by
    unfold den
    rw [coe_sum]
    exact Finset.sum_congr rfl (fun j _ => hpexp j)
  unfold attnK attnR
  rw [hden]
  simp only [hpexp, hvr]
  exact div_sum_eq Finset.univ pr (fun j => vr b j h) hL

end Cert.Attn

end
-- ==== Proof.PreReal.lean ====
import proofs.«154036_j14757507629205_2_alg».proof.Pre_finite_inputs
import Idealize.ShloMosaic.Lib.ReduceAll
import Idealize.ShloMosaic.PureOps.Ideal
import Idealize.ShloMosaic.PureOps.Ideal.Laws
import Idealize.ShloMosaic.Lib.ValueIdx

/-!
  The precondition says of each of the four argument arrays that every entry's absolute value is strictly below
  `+∞`: per array the conjunction over all entries of that comparison, and the conjunction of the four. An
  extended real `x` with `max x (-x) < ⊤` is neither `⊤` nor `⊥`, so it is a real number. Hence, when the
  precondition's word is 1, every entry of every argument is a real number.
-/

noncomputable section

namespace Cert.Attn.Pre

open Idealize.ShloMosaic Cert.Pre_finite_inputs

/-- The scalar shape has one index. -/
instance : Subsingleton S_.Idx := ⟨fun a b => funext fun d => d.elim0⟩

/-- The word of `+inf` denotes `⊤`. -/
theorem ofBits_pinf : Ideal.ofBits .f32 0x7F800000#32 = (⊤ : EReal) := by
  simp [Ideal.ofBits, Ideal.ieee]

/-- An extended real whose absolute value is strictly below `⊤` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The entry test `|x| < +inf`, as a one-bit word equal to 1, says that `x` is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_pinf] at h
  refine real_of_abs_lt_top x ?_
  by_contra hn
  have : Ideal.cmp .olt (max x (-x)) ⊤ = 0#1 := by
    show BitVec.ofBool (decide (max x (-x) < ⊤)) = 0#1
    rw [decide_eq_false hn]; rfl
  rw [this] at h
  exact absurd h (by decide)

/-- The conjunction over all entries of an array of the test `|x| < +inf` being 1, every entry is a real number. -/
theorem all_real {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
        (cmpf .olt (Host.absf a) (broadcastInDim S ![] hb (constant (F := Ideal) S_ .f32 0x7F800000#32)))
        (constantI S_ 1 1#1) hr hu ValueIdx.ix0 = 1#1) :
    ∀ i, ∃ r : ℝ, a i = (r : EReal) := fun i =>
  real_of_test (a i) (Host.reduce_andi_all _ _ hr hu _ e i)

/-- Under the precondition every entry of each of the four arguments is a real number. -/
theorem real_of_fn [Cert.Pre_finite_inputs.Facts]
    (a0 : FVec Ideal Cert.Pre_finite_inputs.S4x2048x1024 .f32) (a1 a2 a3 : FVec Ideal Cert.Pre_finite_inputs.S1024x64 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  unfold Cert.Pre_finite_inputs.fn Cert.Pre_finite_inputs.fn_part1 at h0
  dsimp only at h0
  obtain ⟨h123, h4⟩ := IntOp.andi_eq_one.1 h0
  obtain ⟨h12, h3⟩ := IntOp.andi_eq_one.1 h123
  obtain ⟨h1, h2⟩ := IntOp.andi_eq_one.1 h12
  exact ⟨all_real a0 _ _ _ h1, all_real a1 _ _ _ h2, all_real a2 _ _ _ h3, all_real a3 _ _ _ h4⟩

end Cert.Attn.Pre

end
-- ==== Proof.lean ====
/-
  The five claims of the certificate.

  The three frames: each kernel program's run (both instances) leaves every argument array as launched — no host
  operation and no region writes one —, and the reference's frame is its run with the result dropped.
  The one rewrite of the idealization names the finite stand-in for -∞ used as the mask's fill; at the exact
  instance it denotes -∞ by the certificate's table.
  The algebraic claim: at the exact instance the kernel program's result is, at `(b, s, h)`, the quotient by
  the sum of the weights of the weighted sum of the value rows, and the reference's the sum of the value rows
  weighted by the normalised weights, both over the same three projections of the input. Under the precondition
  the arguments are real, so the projections are real, the row maximum is real, the weights are nonnegative reals
  with a positive sum, and the two arrangements are one real number.
-/
import proofs.«154036_j14757507629205_2_alg».proof.Defs
import proofs.«154036_j14757507629205_2_alg».proof.Proof.Gen.Kernel
import proofs.«154036_j14757507629205_2_alg».proof.Proof.Gen.KernelIdeal
import proofs.«154036_j14757507629205_2_alg».proof.Proof.Gen.ReferenceIdeal
import proofs.«154036_j14757507629205_2_alg».proof.Proof.Gen.Pre_finite_inputs
import proofs.«154036_j14757507629205_2_alg».proof.Proof.Gen.ReferenceIdeal.Run
import proofs.«154036_j14757507629205_2_alg».proof.Proof.Gen.ReferenceIdeal.Read
import proofs.«154036_j14757507629205_2_alg».proof.Proof.RunK
import proofs.«154036_j14757507629205_2_alg».proof.Proof.OutKI
import proofs.«154036_j14757507629205_2_alg».proof.Proof.Payload
import proofs.«154036_j14757507629205_2_alg».proof.Proof.RefSide
import proofs.«154036_j14757507629205_2_alg».proof.Proof.Algebra
import proofs.«154036_j14757507629205_2_alg».proof.Proof.PreReal
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The printed payloads read at an index. -/
theorem payFacts : Cert.KernelIdeal.Hand.PayFacts :=
  ⟨Cert.Attn.Pay.pay1_apply, Cert.Attn.Pay.pay2_apply, Cert.Attn.Pay.pay3_apply, Cert.Attn.Pay.pay4_apply⟩

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the table gives the fill's name the value -∞. -/
theorem preserves : Cert.preserves_Kernel_KernelIdeal :=
  IdealRules.named_const.statement Cert.KernelIdeal.κ "neg_big" .f32 0xFF333332#32 ⊥ rfl

/-- Both programs end with equal results. -/
theorem algebraic : Cert.algebraic_KernelIdeal_ReferenceIdeal := by
  intro m ρ m' ρ' hpre hagree
  refine ⟨fun c => Cert.KernelIdeal.Hand.W4 m ρ c (Proc.devRef .tc Cert.KernelIdeal.main_v6), ?_, ?_⟩
  · exact (θ_run Cert.KernelIdeal.defs _ _).mono (fun r h c =>
      ⟨h c _ (Cert.KernelIdeal.Hand.mem_uc Cert.KernelIdeal.main_v6 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨r0, r1, r2, r3⟩ := Cert.Attn.Pre.real_of_fn _ _ _ _ (hpre c)
    rw [Cert.ReferenceIdeal.Read.val_main_v20_eq, (hagree c).1, (hagree c).2.1, (hagree c).2.2.1, (hagree c).2.2.2]
    funext i
    obtain ⟨b, s, h, rfl⟩ : ∃ (b : Fin 4) (s : Fin 2048) (h : Fin 64), i = ix3 b s h := ⟨i 0, i 1, i 2, eq_ix3 i⟩
    refine (Cert.Attn.Ref.ref_eq _ _ _ _ b s h).trans ?_
    refine ((Cert.Attn.attn_eq ?_ ?_ ?_ b s h).symm).trans (Cert.KernelIdeal.Hand.out_eq m ρ payFacts c b s h).symm
    · exact Cert.Attn.proj_real (fun b s e => r0 (ix3 b s e)) (fun e d => r1 (ix2 e d))
    · exact Cert.Attn.proj_real (fun b s e => r0 (ix3 b s e)) (fun e d => r2 (ix2 e d))
    · exact Cert.Attn.proj_real (fun b s e => r0 (ix3 b s e)) (fun e d => r3 (ix2 e d))

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
